-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x3 : Shape := ⟨3, ![16, 2048, 3]⟩
abbrev S_ : Shape := ⟨0, ![]⟩

class Facts : Prop where
  bcast_S_S16x2048x3 : S_.BroadcastsInDim S16x2048x3 (![] : Fin 0 → Fin S16x2048x3.rank)
  reducesTo_S16x2048x3_S_d0_1_2 : S16x2048x3.ReducesTo [0, 1, 2] S_
  h_S_ : 0 < S_.numel

variable [Facts]

def fn {F : FTy → Type} [FloatOps F] (main_arg0 : FVec F S16x2048x3 .f32) (main_arg1 : FVec F S16x2048x3 .f32) : IVec S_ 1 :=
  let main_v0 : FVec F S16x2048x3 .f32 := Host.absf main_arg0
  let main_cst : FVec F S_ .f32 := constant S_ .f32 0x7F800000#32
  let main_v1 : FVec F S16x2048x3 .f32 := broadcastInDim S16x2048x3 ![] bcast_S_S16x2048x3 main_cst
  let main_v2 : IVec S16x2048x3 1 := cmpf .olt main_v0 main_v1
  let main_c : IVec S_ 1 := constantI S_ 1 1#1
  let main_v3 : IVec S_ 1 := (fun x v => Host.reduce IntOp.andi x v reducesTo_S16x2048x3_S_d0_1_2 h_S_) main_v2 main_c
  let main_v4 : FVec F S16x2048x3 .f32 := Host.absf main_arg1
  let main_cst_0 : FVec F S_ .f32 := constant S_ .f32 0x7F800000#32
  let main_v5 : FVec F S16x2048x3 .f32 := broadcastInDim S16x2048x3 ![] bcast_S_S16x2048x3 main_cst_0
  let main_v6 : IVec S16x2048x3 1 := cmpf .olt main_v4 main_v5
  let main_c_1 : IVec S_ 1 := constantI S_ 1 1#1
  let main_v7 : IVec S_ 1 := (fun x v => Host.reduce IntOp.andi x v reducesTo_S16x2048x3_S_d0_1_2 h_S_) main_v6 main_c_1
  let main_v8 : IVec S_ 1 := andi main_v3 main_v7
  main_v8
-- ==== Kernel.lean ====
abbrev S16x2048x3 : Shape := ⟨3, ![16, 2048, 3]⟩
abbrev S16x3x2048 : Shape := ⟨3, ![16, 3, 2048]⟩
abbrev S16x1x1 : Shape := ⟨3, ![16, 1, 1]⟩
abbrev S1x1024x3 : Shape := ⟨3, ![1, 1024, 3]⟩
abbrev S1x3x2048 : Shape := ⟨3, ![1, 3, 2048]⟩
abbrev S1x1x1 : Shape := ⟨3, ![1, 1, 1]⟩
abbrev S1x2048 : Shape := ⟨2, ![1, 2048]⟩
abbrev S1x1 : Shape := ⟨2, ![1, 1]⟩
abbrev S1024x3 : Shape := ⟨2, ![1024, 3]⟩
abbrev S3x2048 : Shape := ⟨2, ![3, 2048]⟩
abbrev S1024x1 : Shape := ⟨2, ![1024, 1]⟩
abbrev S1024x2048 : Shape := ⟨2, ![1024, 2048]⟩
abbrev S1024 : Shape := ⟨1, ![1024]⟩
abbrev S1 : Shape := ⟨1, ![1]⟩
abbrev S2048 : Shape := ⟨1, ![2048]⟩
abbrev S16 : Shape := ⟨1, ![16]⟩
abbrev S_ : Shape := ⟨0, ![]⟩

abbrev nBuf : Space → Nat
  | .hbm => 18
  | .vmem => 10
  | .smem => 0
  | _ => 0

abbrev bufTy : (tb : Table) → Fin (tcTables nBuf tb) → BufTy
  | .hbm, ⟨0, _⟩ => ⟨S16x2048x3, .f32⟩
  | .hbm, ⟨1, _⟩ => ⟨S16x2048x3, .f32⟩
  | .hbm, ⟨2, _⟩ => ⟨S16x3x2048, .f32⟩
  | .hbm, ⟨3, _⟩ => ⟨S16x1x1, .f32⟩
  | .hbm, ⟨4, _⟩ => ⟨S16x1x1, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x3x2048, .f32⟩
  | .local _ .vmem, ⟨3, _⟩ => ⟨S1x3x2048, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | .local _ .vmem, ⟨8, _⟩ => ⟨S1x2048, .f32⟩
  | .local _ .vmem, ⟨9, _⟩ => ⟨S1x1, .f32⟩
  | _, _ => ⟨S16x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v74 : BitVec 1 := Scalar.cmpi .eq arg1 c1_i32
  let v75 : BitVec 32 := Scalar.extui v74
  let c0_i32_20 : BitVec 32 := 0#32
  let v76 : BitVec 1 := Scalar.cmpi .ne v75 c0_i32_20
  v76

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S16x2048x3_S16x3x2048_0_2_1 : S16x2048x3.Transposes [0, 2, 1] S16x3x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S3x2048 : S1x3x2048.ShapeCasts S3x2048
  slices_S1024x3_o0_0_S1024x1 : S1024x3.Slices ![0, 0] S1024x1
  slices_S3x2048_o0_0_S1x2048 : S3x2048.Slices ![0, 0] S1x2048
  slices_S1024x3_o0_1_S1024x1 : S1024x3.Slices ![0, 1] S1024x1
  slices_S3x2048_o1_0_S1x2048 : S3x2048.Slices ![1, 0] S1x2048
  slices_S1024x3_o0_2_S1024x1 : S1024x3.Slices ![0, 2] S1024x1
  slices_S3x2048_o2_0_S1x2048 : S3x2048.Slices ![2, 0] S1x2048
  broadcasts_S1024x1_S1024x2048 : S1024x1.Broadcasts S1024x2048
  broadcasts_S1x2048_S1024x2048 : S1x2048.Broadcasts S1024x2048
  reduces_S1024x2048_S1024 : S1024x2048.Reduces [1] S1024
  shapeCasts_S1024_S1024x1 : S1024.ShapeCasts S1024x1
  reduces_S1024x1_S1 : S1024x1.Reduces [0] S1
  shapeCasts_S1_S1x1 : S1.ShapeCasts S1x1
  reduces_S1024x2048_S2048 : S1024x2048.Reduces [0] S2048
  shapeCasts_S2048_S1x2048 : S2048.ShapeCasts S1x2048
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reduces_S1x2048_S1 : S1x2048.Reduces [1] S1
  shapeCasts_S16x1x1_S16 : S16x1x1.ShapeCasts S16
  reducesTo_S16_S_d0 : S16.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S16x2048x3.size a
  hwx0_0 : ∀ i : grid0.Coords, EltTy.bits .f32 = 32 ∨ (Rect.block (s := S16x2048x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x2048.size a ≤ S16x3x2048.size a
  hwx0_1 : ∀ i : grid0.Coords, EltTy.bits .f32 = 32 ∨ (Rect.block (s := S16x3x2048) S1x3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S16x1x1.size a
  hwx0_2 : ∀ i : grid0.Coords, EltTy.bits .f32 = 32 ∨ (Rect.block (s := S16x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S16x1x1.size a
  hwx0_3 : ∀ i : grid0.Coords, EltTy.bits .f32 = 32 ∨ (Rect.block (s := S16x1x1) S1x1x1.size (cc0_transform_3 i) (hinb0_3 i)).WholeWords (EltTy.packing .f32)

variable [Facts₀]

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x2048x3 : Shape := ⟨3, ![16, 2048, 3]⟩
abbrev S16x2048x1x3 : Shape := ⟨4, ![16, 2048, 1, 3]⟩
abbrev S16x1x2048x3 : Shape := ⟨4, ![16, 1, 2048, 3]⟩
abbrev S16x2048x2048x3 : Shape := ⟨4, ![16, 2048, 2048, 3]⟩
abbrev S_ : Shape := ⟨0, ![]⟩
abbrev S16x2048x2048 : Shape := ⟨3, ![16, 2048, 2048]⟩
abbrev S16x2048 : Shape := ⟨2, ![16, 2048]⟩

abbrev nBuf : Space → Nat
  | .hbm => 25
  | .vmem => 0
  | .smem => 0
  | _ => 0

abbrev bufTy : (tb : Table) → Fin (tcTables nBuf tb) → BufTy
  | .hbm, ⟨0, _⟩ => ⟨S16x2048x3, .f32⟩
  | .hbm, ⟨1, _⟩ => ⟨S16x2048x3, .f32⟩
  | .hbm, ⟨2, _⟩ => ⟨S16x2048x1x3, .f32⟩
  | .hbm, ⟨3, _⟩ => ⟨S16x1x2048x3, .f32⟩
  | .hbm, ⟨4, _⟩ => ⟨S16x2048x2048x3, .f32⟩
  | .hbm, ⟨5, _⟩ => ⟨S16x2048x2048x3, .f32⟩
  | .hbm, ⟨6, _⟩ => ⟨S16x2048x2048x3, .f32⟩
  | .hbm, ⟨7, _⟩ => ⟨S16x2048x2048x3, .f32⟩
  | .hbm, ⟨8, _⟩ => ⟨S_, .f32⟩
  | .hbm, ⟨9, _⟩ => ⟨S16x2048x2048, .f32⟩
  | .hbm, ⟨10, _⟩ => ⟨S_, .f32⟩
  | .hbm, ⟨11, _⟩ => ⟨S16x2048, .f32⟩
  | .hbm, ⟨12, _⟩ => ⟨S_, .f32⟩
  | .hbm, ⟨13, _⟩ => ⟨S16x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S16x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_cst_5 : Ref sig .tc := ⟨.hbm, 20, rfl⟩
abbrev main_v12 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S16x2048x3_S16x2048x1x3_0_1_3 : S16x2048x3.BroadcastsInDim S16x2048x1x3 (![0, 1, 3] : Fin 3 → Fin S16x2048x1x3.rank)
  bcast_S16x2048x3_S16x1x2048x3_0_2_3 : S16x2048x3.BroadcastsInDim S16x1x2048x3 (![0, 2, 3] : Fin 3 → Fin S16x1x2048x3.rank)
  bcast_S16x2048x1x3_S16x2048x2048x3_0_1_2_3 : S16x2048x1x3.BroadcastsInDim S16x2048x2048x3 (![0, 1, 2, 3] : Fin 4 → Fin S16x2048x2048x3.rank)
  bcast_S16x1x2048x3_S16x2048x2048x3_0_1_2_3 : S16x1x2048x3.BroadcastsInDim S16x2048x2048x3 (![0, 1, 2, 3] : Fin 4 → Fin S16x2048x2048x3.rank)
  reducesTo_S16x2048x2048x3_S16x2048x2048_d3 : S16x2048x2048x3.ReducesTo [3] S16x2048x2048
  h_S_ : 0 < S_.numel
  reducesTo_S16x2048x2048_S16x2048_d2 : S16x2048x2048.ReducesTo [2] S16x2048
  reducesTo_S16x2048x2048_S16x2048_d1 : S16x2048x2048.ReducesTo [1] S16x2048
  reducesTo_S16x2048_S_d0_1 : S16x2048.ReducesTo [0, 1] S_

variable [Facts₀]

class Facts : Prop extends Facts₀ where

variable [Facts]
-- ==== Proof.ChamferSpec.lean ====
/-
  The chamfer distance between two clouds of 2048 points in 3-space, for 16 pairs of clouds at once, stated index by
  index on the extended reals, in the two spellings the two programs use.

  For a pair of clouds `P b`, `Q b` (the rows `(b, i, ·)` of the two argument arrays) the squared distance of two points
  is written either as the sum over the three coordinates of the squared differences (`sqd`), or expanded as the cross
  term `Σ (-2·x_k)·y_k` plus the two squared norms (`sqdX`). The first direction of the chamfer distance takes, for each
  point of `P b`, the infimum over the points of `Q b`, and sums (`near1`); the second does the same with the roles
  exchanged (`near2`). A tiled evaluation visits the points of `P b` in two halves of 1024 (`row n p` is point
  `1024·n + p`): the first direction adds the two halves' sums of row infima to a zero (`tiled1`); the second keeps, per
  point of `Q b`, a running minimum started at `⊤` over the two halves' column infima, and sums it (`tiled2`). Both
  programs end with the same means and the same final scale (`tail`).
-/
import Idealize.ShloMosaic.PureOps.Ideal
import Idealize.ShloMosaic.PureOps.Ideal.Laws
import Idealize.ShloMosaic.Lib.ValueIdx

noncomputable section

open scoped BigOperators

namespace Cert.Chamfer

open Idealize.ShloMosaic Idealize.ShloMosaic.ValueIdx

/-- An array of 16 clouds of 2048 points of 3 coordinates. -/
abbrev Pts := (⟨3, ![16, 2048, 3]⟩ : Shape).Idx → EReal

/-- The scalar shape. -/
abbrev Sc : Shape := ⟨0, ![]⟩

/-- The value of the f32 word of `+0.0`. -/
def zw : EReal := Ideal.ofBits .f32 0x00000000#32
/-- The value of the f32 word of `-2.0`. -/
def m2w : EReal := Ideal.ofBits .f32 0xC0000000#32

/-- Point `i` of cloud `b`. -/
def pt (P : Pts) (b : Fin 16) (i : Fin 2048) : Fin 3 → EReal := fun k => P (ix3 b i k)

/-- Point `p` of half `n` of a cloud: point `1024·n + p`. -/
def row (n : Fin 2) (p : Fin 1024) : Fin 2048 := ⟨n.val * 1024 + p.val, by have := n.isLt; have := p.isLt; omega⟩

/-- The squared distance as the sum of the squared coordinate differences, from the zero word. -/
def sqd (x y : Fin 3 → EReal) : EReal := zw + ∑ k : Fin 3, (x k - y k) * (x k - y k)

/-- The squared distance expanded: the cross term over `-2·x`, then the squared norm of `x`, then that of `y`, each sum
    taken coordinate by coordinate from the zero word. -/
def sqdX (x y : Fin 3 → EReal) : EReal :=
  ((((zw + (x 0 * m2w) * y 0) + (x 1 * m2w) * y 1) + (x 2 * m2w) * y 2)
      + (((zw + x 0 * x 0) + x 1 * x 1) + x 2 * x 2))
    + (((zw + y 0 * y 0) + y 1 * y 1) + y 2 * y 2)

/-- First direction: for each point of `P b` the infimum over the points of `Q b`, summed. -/
def near1 (P Q : Pts) (b : Fin 16) : EReal :=
  ∑ i : Fin 2048, Finset.univ.inf fun j : Fin 2048 => sqd (pt P b i) (pt Q b j)

/-- Second direction: for each point of `Q b` the infimum over the points of `P b`, summed. -/
def near2 (P Q : Pts) (b : Fin 16) : EReal :=
  ∑ j : Fin 2048, Finset.univ.inf fun i : Fin 2048 => sqd (pt P b i) (pt Q b j)

/-- In half `n`, the infimum over the points of `Q b` for point `p` of the half (expanded distances). -/
def rowMin (P Q : Pts) (b : Fin 16) (n : Fin 2) (p : Fin 1024) : EReal :=
  Finset.univ.inf fun c : Fin 2048 => sqdX (pt P b (row n p)) (pt Q b c)

/-- In half `n`, the infimum over the half's points for point `c` of `Q b` (expanded distances). -/
def colMin (P Q : Pts) (b : Fin 16) (n : Fin 2) (c : Fin 2048) : EReal :=
  Finset.univ.inf fun p : Fin 1024 => sqdX (pt P b (row n p)) (pt Q b c)

/-- First direction, tiled: the zero word plus the first half's sum, plus the second half's sum. -/
def tiled1 (P Q : Pts) (b : Fin 16) : EReal :=
  (zw + ∑ p : Fin 1024, rowMin P Q b 0 p) + ∑ p : Fin 1024, rowMin P Q b 1 p

/-- Second direction, tiled: per point of `Q b` the running minimum from `⊤` over the two halves, summed. -/
def tiled2 (P Q : Pts) (b : Fin 16) : EReal :=
  ∑ c : Fin 2048, min (min ⊤ (colMin P Q b 0 c)) (colMin P Q b 1 c)

/-- What both programs do with the two totals: each divided by `32768`, added, scaled by `1`. -/
def tail (s1 s2 : FVec Ideal Sc .f32) : FVec Ideal Sc .f32 :=
  mulf (constant (F := Ideal) Sc .f32 0x3F800000#32)
    (addf (Host.divf (F := Ideal) s1 (constant (F := Ideal) Sc .f32 0x47000000#32))
      (Host.divf (F := Ideal) s2 (constant (F := Ideal) Sc .f32 0x47000000#32)))

/-- The chamfer result from per-cloud totals `t1`, `t2`: each summed over the 16 clouds from the zero word, then `tail`. -/
def result (t1 t2 : Fin 16 → EReal) : FVec Ideal Sc .f32 :=
  tail (fun _ => zw + ∑ b : Fin 16, t1 b) (fun _ => zw + ∑ b : Fin 16, t2 b)

end Cert.Chamfer

end
-- ==== Proof.ChamferAlgebra.lean ====
/-
  The two tiled evaluations of the chamfer sums agree with the direct ones when every coordinate is a real number.

  Three facts are used. The zero word denotes `0` and the word of `-2.0` denotes the real `-2`. For points with real
  coordinates the expanded squared distance and the sum of squared differences are coercions of the same real
  polynomial (this is the only place where finiteness matters: multiplication does not distribute over addition at
  `±∞`). A sum, or an infimum, over the 2048 points splits into the two halves `row 0 p = p` and
  `row 1 p = 1024 + p`, with no hypothesis on the summands.
-/
import proofs.«143833_j14645838479503_2_alg».proof.Proof.ChamferSpec
import Idealize.ShloMosaic.PureOps.Ideal.Laws
import Mathlib.Data.EReal.Basic
import Mathlib.Algebra.BigOperators.Fin
import Mathlib.Tactic.Ring
import Mathlib.Tactic.NormNum

noncomputable section

open scoped BigOperators

namespace Cert.Chamfer

open Idealize.ShloMosaic Idealize.ShloMosaic.ValueIdx

/-- The zero word denotes `0`. -/
theorem zw_eq : zw = 0 := Ideal.ofBits_zero_f32

/-- The word of `-2.0` denotes the real `-2`. -/
theorem m2w_eq : m2w = ((-2 : ℝ) : EReal) := by
  unfold m2w
  simp [Ideal.ofBits, Ideal.ieee, -EReal.coe_mul]; norm_num

/-- For points with real coordinates the expanded squared distance is the sum of the squared differences. -/
theorem sqdX_eq_sqd (x y : Fin 3 → EReal) (a c : Fin 3 → ℝ) (hx : ∀ k, x k = (a k : EReal))
    (hy : ∀ k, y k = (c k : EReal)) : sqdX x y = sqd x y := by
  unfold sqdX sqd
  rw [Fin.sum_univ_three, zw_eq, m2w_eq]
  simp only [hx, hy, zero_add, ← EReal.coe_mul, ← EReal.coe_add, ← EReal.coe_sub]
  congr 1
  ring

/-- A sum over the 2048 points is the sum over the first half plus the sum over the second half. -/
theorem sum_split {M : Type} [AddCommMonoid M] (f : Fin 2048 → M) :
    ∑ i : Fin 2048, f i = (∑ p : Fin 1024, f (row 0 p)) + ∑ p : Fin 1024, f (row 1 p) := by
  have h := Fin.sum_univ_add (a := 1024) (b := 1024) f
  have e0 : ∀ p : Fin 1024, (Fin.castAdd 1024 p : Fin (1024 + 1024)) = row 0 p := fun p => Fin.ext (by simp [row])
  have e1 : ∀ p : Fin 1024, (Fin.natAdd 1024 p : Fin (1024 + 1024)) = row 1 p := fun p => Fin.ext (by simp [row]; omega)
  simp only [e0, e1] at h
  exact h

/-- An infimum over the 2048 points is the smaller of the infima over the two halves. -/
theorem inf_split (f : Fin 2048 → EReal) :
    Finset.univ.inf f
      = min (Finset.univ.inf fun p : Fin 1024 => f (row 0 p)) (Finset.univ.inf fun p : Fin 1024 => f (row 1 p)) := by
  apply le_antisymm
  · apply le_min
    · exact Finset.le_inf fun p _ => Finset.inf_le (Finset.mem_univ _)
    · exact Finset.le_inf fun p _ => Finset.inf_le (Finset.mem_univ _)
  · apply Finset.le_inf
    intro i _
    by_cases h : i.val < 1024
    · have e : f (row 0 ⟨i.val, h⟩) = f i := congrArg f (Fin.ext (by simp [row]))
      rw [← e]
      exact (min_le_left _ _).trans
        (Finset.inf_le (f := fun p : Fin 1024 => f (row 0 p)) (Finset.mem_univ (⟨i.val, h⟩ : Fin 1024)))
    · have h2 : i.val - 1024 < 1024 := by have := i.isLt; omega
      have e : f (row 1 ⟨i.val - 1024, h2⟩) = f i := congrArg f (Fin.ext (by simp [row]; omega))
      rw [← e]
      exact (min_le_right _ _).trans
        (Finset.inf_le (f := fun p : Fin 1024 => f (row 1 p)) (Finset.mem_univ (⟨i.val - 1024, h2⟩ : Fin 1024)))

/-- The coordinates of a point of an array of real entries are real. -/
theorem pt_real (P : Pts) (hP : ∀ i, ∃ r : ℝ, P i = (r : EReal)) (b : Fin 16) (i : Fin 2048) :
    ∃ a : Fin 3 → ℝ, ∀ k, pt P b i k = (a k : EReal) :=
  ⟨fun k => (hP (ix3 b i k)).choose, fun k => (hP (ix3 b i k)).choose_spec⟩

/-- On arrays of real entries the two spellings of the squared distance agree at every pair of points. -/
theorem sqdX_pt (P Q : Pts) (hP : ∀ i, ∃ r : ℝ, P i = (r : EReal)) (hQ : ∀ i, ∃ r : ℝ, Q i = (r : EReal))
    (b : Fin 16) (i j : Fin 2048) : sqdX (pt P b i) (pt Q b j) = sqd (pt P b i) (pt Q b j) := by
  obtain ⟨a, ha⟩ := pt_real P hP b i
  obtain ⟨c, hc⟩ := pt_real Q hQ b j
  exact sqdX_eq_sqd _ _ a c ha hc

/-- The tiled first direction is the first direction. -/
theorem tiled1_eq (P Q : Pts) (hP : ∀ i, ∃ r : ℝ, P i = (r : EReal)) (hQ : ∀ i, ∃ r : ℝ, Q i = (r : EReal))
    (b : Fin 16) : tiled1 P Q b = near1 P Q b := by
  unfold tiled1 near1 rowMin
  rw [sum_split (fun i : Fin 2048 => Finset.univ.inf fun j : Fin 2048 => sqd (pt P b i) (pt Q b j)), zw_eq, zero_add]
  simp only [sqdX_pt P Q hP hQ]

/-- The tiled second direction is the second direction. -/
theorem tiled2_eq (P Q : Pts) (hP : ∀ i, ∃ r : ℝ, P i = (r : EReal)) (hQ : ∀ i, ∃ r : ℝ, Q i = (r : EReal))
    (b : Fin 16) : tiled2 P Q b = near2 P Q b := by
  unfold tiled2 near2 colMin
  refine Finset.sum_congr rfl fun c _ => ?_
  rw [inf_split (fun i : Fin 2048 => sqd (pt P b i) (pt Q b c)), min_top_left]
  simp only [sqdX_pt P Q hP hQ]

end Cert.Chamfer

end
-- ==== Proof.ChamferFinite.lean ====
/-
  The printed precondition on the two argument arrays says that every entry is a real number.

  The precondition is the conjunction of two tests, one per array: the absolute value of every entry compares strictly
  below the word of `+∞`, all entries taken together by `and` from `1`. The word of `+∞` denotes `⊤`; an extended
  real `x` with `max x (-x) < ⊤` is neither `⊤` nor `⊥`, so it is the coercion of a real.
-/
import proofs.«143833_j14645838479503_2_alg».proof.Defs
import proofs.«143833_j14645838479503_2_alg».proof.Proof.Gen.Pre_finite_inputs
import proofs.«143833_j14645838479503_2_alg».proof.Proof.ChamferSpec
import Idealize.ShloMosaic.Lib.ReduceAll
import Idealize.ShloMosaic.Lib.IdealHost

noncomputable section

namespace Cert.ChamferFinite

open Idealize.ShloMosaic Idealize.ShloMosaic.ValueIdx

/-- The scalar shape has one index. -/
instance : Subsingleton Cert.Pre_finite_inputs.S_.Idx := ⟨fun a b => funext fun d => d.elim0⟩

/-- The word of `+∞` denotes `⊤`. -/
theorem inf_word : Ideal.ofBits .f32 0x7F800000#32 = (⊤ : EReal) := by
  simp [Ideal.ofBits, Ideal.ieee]

/-- An extended real whose absolute value compares strictly below `⊤` is a real. -/
theorem real_of_abs_lt (x : EReal) (h : Ideal.cmp .olt (max x (-x)) (⊤ : EReal) = 1#1) : ∃ r : ℝ, x = (r : EReal) := by
  induction x using EReal.rec with
  | bot => simp [Ideal.cmp] at h
  | coe r => exact ⟨r, rfl⟩
  | top => simp [Ideal.cmp] at h

/-- One test of the precondition, read at an entry. -/
theorem entry_real [Cert.Pre_finite_inputs.Facts] (P : Cert.Chamfer.Pts) (i : Cert.Pre_finite_inputs.S16x2048x3.Idx)
    (h : cmpf .olt (Host.absf (F := Ideal) (φ := .f32) P)
          (broadcastInDim Cert.Pre_finite_inputs.S16x2048x3 ![] Cert.Pre_finite_inputs.Facts.bcast_S_S16x2048x3
            (constant (F := Ideal) Cert.Pre_finite_inputs.S_ .f32 0x7F800000#32)) i = 1#1) :
    ∃ r : ℝ, P i = (r : EReal) := by
  rw [cmpf_apply, broadcastInDim_scalar_apply, constant_apply, inf_word] at h
  exact real_of_abs_lt (P i) h

/-- The precondition holds only of arrays of real entries. -/
theorem finite_of_pre [Cert.Pre_finite_inputs.Facts] (P Q : Cert.Chamfer.Pts)
    (h : Cert.Pre_finite_inputs.fn (F := Ideal) P Q = (fun _ => 1#1)) :
    (∀ i, ∃ r : ℝ, P i = (r : EReal)) ∧ (∀ i, ∃ r : ℝ, Q i = (r : EReal)) := by
  have h0 := congrFun h ix0
  dsimp only [Cert.Pre_finite_inputs.fn] at h0
  obtain ⟨hp, hq⟩ := IntOp.andi_eq_one.1 h0
  exact ⟨fun i => entry_real P i (Host.reduce_andi_all _ _ _ _ ix0 hp i),
    fun i => entry_real Q i (Host.reduce_andi_all _ _ _ _ ix0 hq i)⟩

end Cert.ChamferFinite

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.LibTileLayout.lean ====
/-
  Readings, at an index written by its coordinates, of the operations that turn a matrix `[a, b]` of pairwise
  values into its row minima and its column minima, and of one more keepdims cast:
  • a column `[a, 1]` cast to the vector `[a]` reads, at `i`, the column at `(i, u)` (the unit coordinate `u` is
    whatever the caller writes: there is only one);
  • the f32 word `0x7F800000` denotes `⊤` on the extended reals, the value a minimum starts from;
  • a minimum reduction over the LAST axis of a matrix, started from a word that denotes `⊤`, read at row `p`, is the
    infimum of that row's `b` entries; over the FIRST axis, read at column `c`, the infimum of that column's `a`
    entries. The reduction folds `min` over the entries in some order; `min` commutes and associates, so the fold
    is the fold over the finite set of the reduced coordinate, which from `⊤` is that set's infimum;
  • the factors of a tile of pairwise products: for `v : [a, n]` and `w : [b, n]`, column `d` of `v` spread along the
    rows of `[a, b]` reads `v (p, d)` at `(p, c)`, column `d` of `w` turned into a row and spread along the columns
    reads `w (c, d)`; and a last-axis sum of `[a, n]` spread the first way reads the sum of row `p`, a last-axis sum
    of `[b, n]` spread the second way the sum of row `c`.
-/
import Idealize.ShloMosaic.Lib.ValueLayout
import Idealize.ShloMosaic.PureOps.Ideal.Laws
import proofs.«143833_j14645838479503_2_alg».proof.Proof.LibKeepdims

open scoped BigOperators

namespace Cert.LibTileLayout

open Idealize.ShloMosaic Idealize.ShloMosaic.ValueIdx

variable {α : Type}

/-- A column `[a, 1]` cast to the vector `[a]` reads, at `i`, the column at `(i, u)`: both indices sit at row-major
    position `i`. -/
theorem shapeCast_a1_a_apply {a : ℕ} (x : (⟨2, ![a, 1]⟩ : Shape).Idx → α) (h : (⟨2, ![a, 1]⟩ : Shape).ShapeCasts ⟨1, ![a]⟩)
    (i : Fin a) (u : Fin 1) : shapeCast ⟨1, ![a]⟩ x h (ix1 i) = x (ix2 i u) :=
  shapeCast_apply x h _ _ (by
    have hu : u.val = 0 := by omega
    rw [Shape.rowMajor_val_two, Shape.rowMajor_val_one]
    show i.val * 1 + u.val = i.val
    rw [hu, Nat.mul_one, Nat.add_zero])

/-- The f32 word of `+∞` denotes `⊤`. -/
theorem ofBits_posInf_f32 : Ideal.ofBits .f32 0x7F800000#32 = ⊤ := by simp [Ideal.ofBits, Ideal.ieee]

/-- On the extended reals the fold of `min` from `⊤` over all of a finite type is the infimum over it. -/
theorem fold_min_top_eq_inf {ι : Type} [Fintype ι] (f : ι → EReal) :
    (Finset.univ : Finset ι).fold min (⊤ : EReal) f = Finset.univ.inf f := rfl

/-- At the ideal values a float `vector.multi_reduction <minimumf>` over the LAST axis of an `[a, b]` matrix, started
    from a word that denotes `⊤`, read at row `p`, is the infimum of that row's `b` entries. -/
theorem multiReduction_minimumf_lastAxis_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.minimumf.neutral .f32 hφ) (htop : Ideal.ofBits .f32 acc = ⊤) (p : Fin a) :
    multiReduction .minimumf [1] ⟨1, ![a]⟩ src acc h hφ hacc (ix1 p)
      = (Finset.univ.inf fun k : Fin b => src (ix2 p k) : EReal) := by
  refine (multiReduction_minimumf_eq_fold src acc h hφ hacc (ix1 p)).trans ?_
  refine (h.fold_filter_drop_single FloatOps.minimumf (FloatOps.ofBits .f32 acc) src (ix1 p)).trans ?_
  show (Finset.univ : Finset (Fin b)).fold min (Ideal.ofBits .f32 acc) (fun k => src (h.lift (ix1 p) k)) = _
  rw [htop]
  refine (fold_min_top_eq_inf _).trans (Finset.inf_congr rfl fun k _ => congrArg src ?_)
  funext ax; apply Fin.ext
  match ax with
  | ⟨0, _⟩ => rfl
  | ⟨1, _⟩ => rfl

/-- The same over the FIRST axis: read at column `c`, the infimum of that column's `a` entries. -/
theorem multiReduction_minimumf_firstAxis_apply {a b : ℕ} (src : FVec Ideal ⟨2, ![a, b]⟩ .f32) (acc : BitVec 32)
    (h : (⟨2, ![a, b]⟩ : Shape).Reduces [0] ⟨1, ![b]⟩) (hφ : FKind.Formats .f32)
    (hacc : acc = FKind.minimumf.neutral .f32 hφ) (htop : Ideal.ofBits .f32 acc = ⊤) (c : Fin b) :
    multiReduction .minimumf [0] ⟨1, ![b]⟩ src acc h hφ hacc (ix1 c)
      = (Finset.univ.inf fun r : Fin a => src (ix2 r c) : EReal) := by
  refine (multiReduction_minimumf_eq_fold src acc h hφ hacc (ix1 c)).trans ?_
  refine (h.fold_filter_drop_single FloatOps.minimumf (FloatOps.ofBits .f32 acc) src (ix1 c)).trans ?_
  show (Finset.univ : Finset (Fin a)).fold min (Ideal.ofBits .f32 acc) (fun r => src (h.lift (ix1 c) r)) = _
  rw [htop]
  refine (fold_min_top_eq_inf _).trans (Finset.inf_congr rfl fun r _ => congrArg src ?_)
  funext ax; apply Fin.ext
  match ax with
  | ⟨0, _⟩ => rfl
  | ⟨1, _⟩ => rfl

/-! ## A factor of a pairwise product, and a squared norm, spread over the tile

For two matrices of points, `v : [a, n]` (a row per point of the tile) and `w : [b, n]` (a row per point of the cloud), the
`[a, b]` tile of products of coordinate `d` is built from column `d` of `v` spread along the rows and column `d` of
`w`, turned into a row, spread along the columns; the squared norms likewise from a last-axis sum. -/

/-- Column `d` of `v : [a, n]`, cut out as `[a, 1]` and broadcast to `[a, b]`, reads at `(p, c)` the entry `v (p, d)`. -/
theorem broadcastTo_sliceCol_apply {a b n : ℕ} (d : ℕ) (v : (⟨2, ![a, n]⟩ : Shape).Idx → α)
    (hs : (⟨2, ![a, n]⟩ : Shape).Slices ![0, d] ⟨2, ![a, 1]⟩) (hb : (⟨2, ![a, 1]⟩ : Shape).Broadcasts ⟨2, ![a, b]⟩)
    (p : Fin a) (c : Fin b) (k : Fin n) (hk : k.val = d) :
    broadcastTo ⟨2, ![a, b]⟩ (extractStridedSlice ⟨2, ![a, 1]⟩ ![0, d] v hs) hb (ix2 p c) = v (ix2 p k) :=
  (Cert.LibKeepdims.broadcastTo_a1_ab_apply _ hb p c (0 : Fin 1)).trans
    (slice2_axis1_apply d v hs p (0 : Fin 1) k (by rw [hk]; rfl))

/-- Column `d` of `w : [b, n]`, cut out as `[b, 1]`, cast to the vector `[b]`, then to the row `[1, b]`, and broadcast to
    `[a, b]`, reads at `(p, c)` the entry `w (c, d)`. -/
theorem broadcastTo_sliceCol_row_apply {a b n : ℕ} (d : ℕ) (w : (⟨2, ![b, n]⟩ : Shape).Idx → α)
    (hs : (⟨2, ![b, n]⟩ : Shape).Slices ![0, d] ⟨2, ![b, 1]⟩) (hc1 : (⟨2, ![b, 1]⟩ : Shape).ShapeCasts ⟨1, ![b]⟩)
    (hc2 : (⟨1, ![b]⟩ : Shape).ShapeCasts ⟨2, ![1, b]⟩) (hb : (⟨2, ![1, b]⟩ : Shape).Broadcasts ⟨2, ![a, b]⟩)
    (p : Fin a) (c : Fin b) (k : Fin n) (hk : k.val = d) :
    broadcastTo ⟨2, ![a, b]⟩ (shapeCast ⟨2, ![1, b]⟩ (shapeCast ⟨1, ![b]⟩ (extractStridedSlice ⟨2, ![b, 1]⟩ ![0, d] w hs) hc1) hc2) hb
      (ix2 p c) = w (ix2 c k) :=
  (broadcastTo_1b_ab_apply _ hb p c).trans <|
    (shapeCast_a_1a_apply _ hc2 (0 : Fin 1) c).trans <|
      (shapeCast_a1_a_apply _ hc1 c (0 : Fin 1)).trans
        (slice2_axis1_apply d w hs c (0 : Fin 1) k (by rw [hk]; rfl))

/-- The last-axis sum of `m : [a, n]`, as the column `[a, 1]`, broadcast to `[a, b]`, reads at `(p, c)` the sum of row `p`. -/
theorem broadcastTo_rowSum_apply {a b n : ℕ} (m : FVec Ideal ⟨2, ![a, n]⟩ .f32) (acc : BitVec 32)
    (h : (⟨2, ![a, n]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ (multiReduction .add [1] ⟨1, ![a]⟩ m acc h hφ hacc) hc) hb (ix2 p c)
      = ∑ k : Fin n, m (ix2 p k) :=
  (Cert.LibKeepdims.broadcastTo_a1_ab_apply _ hb p c (0 : Fin 1)).trans <|
    (Cert.LibKeepdims.shapeCast_a_a1_apply _ hc p (0 : Fin 1)).trans
      (Cert.LibKeepdims.multiReduction_add_lastAxis_apply m acc h hφ hacc p)

/-- The last-axis sum of `m : [b, n]`, as the row `[1, b]`, broadcast to `[a, b]`, reads at `(p, c)` the sum of row `c`. -/
theorem broadcastTo_rowSum_row_apply {a b n : ℕ} (m : FVec Ideal ⟨2, ![b, n]⟩ .f32) (acc : BitVec 32)
    (h : (⟨2, ![b, n]⟩ : Shape).Reduces [1] ⟨1, ![b]⟩) (hφ : FKind.Formats .f32) (hacc : acc = FKind.add.neutral .f32 hφ)
    (hc : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ (multiReduction .add [1] ⟨1, ![b]⟩ m acc h hφ hacc) hc) hb (ix2 p c)
      = ∑ k : Fin n, m (ix2 c k) :=
  (broadcastTo_1b_ab_apply _ hb p c).trans <|
    (shapeCast_a_1a_apply _ hc (0 : Fin 1) c).trans
      (Cert.LibKeepdims.multiReduction_add_lastAxis_apply m acc h hφ hacc c)

end Cert.LibTileLayout
-- ==== Proof.RefChamfer.lean ====
/-
  The reference program's value is the chamfer result of the two nearest-point totals.

  The reference spreads the two clouds over a `[16, 2048, 2048, 3]` array of coordinate differences, squares them,
  sums the three coordinates from the zero word (the squared distance of point `i` of the first cloud and point `j` of
  the second), takes the minimum over `j` (started at the word of `+∞`, which is `⊤`) and the minimum over `i`, sums
  each array of minima over all of its `16 · 2048` entries from the zero word, and ends with the common tail. Read index
  by index this is the specification's `near1`, `near2` and `result`: a minimum reduction folds `min` over the reduced
  coordinate in some order, and `min` commutes and associates, so from `⊤` it is the infimum over that coordinate; a sum
  over the rank-2 index set is the double sum over its coordinates.
-/
import proofs.«143833_j14645838479503_2_alg».proof.Proof.Gen.ReferenceIdeal.Read
import proofs.«143833_j14645838479503_2_alg».proof.Proof.ChamferSpec
import proofs.«143833_j14645838479503_2_alg».proof.Proof.LibTileLayout

noncomputable section

open scoped BigOperators

namespace Cert.RefChamfer

open Idealize.ShloMosaic Idealize.ShloMosaic.ValueIdx Cert.Chamfer Cert.ReferenceIdeal Cert.ReferenceIdeal.Gen
  Cert.ReferenceIdeal.Read

/-- Entry `(b, i, j)` of the array of pairwise sums is the squared distance of point `i` of the first cloud `b` and
    point `j` of the second. -/
theorem v6_eq (x0 x1 : Pts) (b : Fin 16) (i j : Fin 2048) :
    val_main_v6 (F := Ideal) x0 x1 (ix3 b i j) = sqd (pt x0 b i) (pt x1 b j) := by
  rw [val_main_v6_apply]
  unfold sqd
  refine congrArg₂ (· + ·) rfl (Finset.sum_congr rfl fun k _ => ?_)
  rw [val_main_v5_apply, val_main_v4_apply, val_main_v2_apply, val_main_v3_apply, val_main_v0_apply, val_main_v1_apply]
  have h0 : idx_main_v0 (idx_main_v2 (idx_main_v6 (ix3 b i j) k)) = ix3 b i k :=
    funext fun a => Fin.ext (by match a with | ⟨0, _⟩ => rfl | ⟨1, _⟩ => rfl | ⟨2, _⟩ => rfl)
  have h1 : idx_main_v1 (idx_main_v3 (idx_main_v6 (ix3 b i j) k)) = ix3 b j k :=
    funext fun a => Fin.ext (by match a with | ⟨0, _⟩ => rfl | ⟨1, _⟩ => rfl | ⟨2, _⟩ => rfl)
  rw [h0, h1]
  rfl

/-- The three-axis array loses its last axis, and its middle axis, each to a two-axis array. -/
theorem reduces_last : S16x2048x2048.Reduces [2] S16x2048 := by decide
theorem reduces_mid : S16x2048x2048.Reduces [1] S16x2048 := by decide

/-- A minimum reduction over the LAST axis of a `[16, 2048, 2048]` array, started from the word of `+∞`, read at
    `(b, i)`, is the infimum of the entries `(b, i, j)` over `j`. -/
theorem min_last (y : FVec Ideal S16x2048x2048 .f32) (b : Fin 16) (i : Fin 2048) :
    Host.reduce FloatOps.minimumf y (constant (F := Ideal) S_ .f32 0x7F800000#32) reducesTo_S16x2048x2048_S16x2048_d2 h_S_
        (ix2 b i)
      = (Finset.univ.inf fun j : Fin 2048 => y (ix3 b i j) : EReal) := by
  refine (Host.reduce_eq_fold_single FloatOps.minimumf y _ reducesTo_S16x2048x2048_S16x2048_d2 reduces_last h_S_
    (ix2 b i)).trans ?_
  show (Finset.univ : Finset (Fin 2048)).fold min (Ideal.ofBits .f32 0x7F800000#32)
    (fun k => y (reduces_last.lift (ix2 b i) k)) = _
  rw [Cert.LibTileLayout.ofBits_posInf_f32]
  refine (Cert.LibTileLayout.fold_min_top_eq_inf _).trans (Finset.inf_congr rfl fun k _ => congrArg y ?_)
  funext ax; apply Fin.ext
  match ax with
  | ⟨0, _⟩ => rfl
  | ⟨1, _⟩ => rfl
  | ⟨2, _⟩ => rfl

/-- The same over the MIDDLE axis: read at `(b, j)`, the infimum of the entries `(b, i, j)` over `i`. -/
theorem min_mid (y : FVec Ideal S16x2048x2048 .f32) (b : Fin 16) (j : Fin 2048) :
    Host.reduce FloatOps.minimumf y (constant (F := Ideal) S_ .f32 0x7F800000#32) reducesTo_S16x2048x2048_S16x2048_d1 h_S_
        (ix2 b j)
      = (Finset.univ.inf fun i : Fin 2048 => y (ix3 b i j) : EReal) := by
  refine (Host.reduce_eq_fold_single FloatOps.minimumf y _ reducesTo_S16x2048x2048_S16x2048_d1 reduces_mid h_S_
    (ix2 b j)).trans ?_
  show (Finset.univ : Finset (Fin 2048)).fold min (Ideal.ofBits .f32 0x7F800000#32)
    (fun k => y (reduces_mid.lift (ix2 b j) k)) = _
  rw [Cert.LibTileLayout.ofBits_posInf_f32]
  refine (Cert.LibTileLayout.fold_min_top_eq_inf _).trans (Finset.inf_congr rfl fun k _ => congrArg y ?_)
  funext ax; apply Fin.ext
  match ax with
  | ⟨0, _⟩ => rfl
  | ⟨1, _⟩ => rfl
  | ⟨2, _⟩ => rfl

/-- The minimum over the last axis, at `(b, i)`: the infimum over the points `j` of the second cloud. -/
theorem v7_eq (x0 x1 : Pts) (b : Fin 16) (i : Fin 2048) :
    val_main_v7 (F := Ideal) x0 x1 (ix2 b i)
      = Finset.univ.inf fun j : Fin 2048 => val_main_v6 (F := Ideal) x0 x1 (ix3 b i j) :=
  min_last (val_main_v6 (F := Ideal) x0 x1) b i

/-- The minimum over the middle axis, at `(b, j)`: the infimum over the points `i` of the first cloud. -/
theorem v8_eq (x0 x1 : Pts) (b : Fin 16) (j : Fin 2048) :
    val_main_v8 (F := Ideal) x0 x1 (ix2 b j)
      = Finset.univ.inf fun i : Fin 2048 => val_main_v6 (F := Ideal) x0 x1 (ix3 b i j) :=
  min_mid (val_main_v6 (F := Ideal) x0 x1) b j

/-- The first total: the zero word plus, over the 16 clouds, the sums of the row infima. -/
theorem v9_eq (x0 x1 : Pts) :
    val_main_v9 (F := Ideal) x0 x1 = fun _ => zw + ∑ b : Fin 16, near1 x0 x1 b := by
  funext i
  rw [val_main_v9_apply, sum_idx2]
  refine congrArg₂ (· + ·) rfl (Finset.sum_congr rfl fun b _ => ?_)
  unfold near1
  refine Finset.sum_congr rfl fun p _ => ?_
  rw [v7_eq]
  exact Finset.inf_congr rfl fun j _ => v6_eq x0 x1 b p j

/-- The second total: the zero word plus, over the 16 clouds, the sums of the column infima. -/
theorem v11_eq (x0 x1 : Pts) :
    val_main_v11 (F := Ideal) x0 x1 = fun _ => zw + ∑ b : Fin 16, near2 x0 x1 b := by
  funext i
  rw [val_main_v11_apply, sum_idx2]
  refine congrArg₂ (· + ·) rfl (Finset.sum_congr rfl fun b _ => ?_)
  unfold near2
  refine Finset.sum_congr rfl fun q _ => ?_
  rw [v8_eq]
  exact Finset.inf_congr rfl fun p _ => v6_eq x0 x1 b p q

/-- The reference's value is the chamfer result of the two nearest-point totals. -/
theorem ref_eq (x0 x1 : Pts) :
    val_main_v14 (F := Ideal) x0 x1 = result (near1 x0 x1) (near2 x0 x1) := by
  unfold val_main_v14 val_main_v13 val_main_v12 val_main_v10
  rw [v9_eq, v11_eq]
  rfl

end Cert.RefChamfer

end
-- ==== Proof.KernelBlocks.lean ====
/-
  What the kernel's two input windows hold at a grid point, in terms of the two argument arrays.

  The grid has 32 points; point `t` is step `t % 2` of cloud `t / 2`. The first window's block at `t` is the tile of 1024
  points `1024·(t % 2) + p` of cloud `t / 2` of the first argument. The second window stages the second argument
  transposed on its last two axes, all 2048 points of cloud `t / 2` with one coordinate per row: entry `(k, c)` of the
  block is coordinate `k` of point `c`.
-/
import proofs.«143833_j14645838479503_2_alg».proof.Proof.Gen.KernelIdeal.Frame
import proofs.«143833_j14645838479503_2_alg».proof.Proof.ChamferSpec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.Chamfer

variable {F : FTy → Type} [FloatOps F]
variable (m : (ℓ : Loc nD τ sig) → Buf (Elt F) ℓ)

/-- The cloud a grid point works on: point `t` is step `t % 2` of cloud `t / 2`. -/
def cloudOf (t : Fin cfg0.N) : Fin 16 := ⟨t.val / 2, by have := t.isLt; have hN : cfg0.N = 32 := N_0; omega⟩
/-- The half of the cloud a grid point works on. -/
def halfOf (t : Fin cfg0.N) : Fin 2 := ⟨t.val % 2, by omega⟩

/-- The printed index maps over the grid: the tile window is at block `(t / 2, t % 2, 0)`, the cloud window and the two
    output windows at block `(t / 2, 0, 0)`. -/
theorem idx_facts : ∀ t : Fin cfg0.N,
    (win0_0.index t (0 : Fin 3) = t.val / 2 ∧ win0_0.index t (1 : Fin 3) = t.val % 2 ∧ win0_0.index t (2 : Fin 3) = 0)
    ∧ (win0_1.index t (0 : Fin 3) = t.val / 2 ∧ win0_1.index t (1 : Fin 3) = 0 ∧ win0_1.index t (2 : Fin 3) = 0)
    ∧ (win0_2.index t (0 : Fin 3) = t.val / 2 ∧ win0_2.index t (1 : Fin 3) = 0 ∧ win0_2.index t (2 : Fin 3) = 0)
    ∧ (win0_3.index t (0 : Fin 3) = t.val / 2 ∧ win0_3.index t (1 : Fin 3) = 0 ∧ win0_3.index t (2 : Fin 3) = 0) :=
  (by decide +kernel : ∀ t : Fin grid0.N, _)

/-- The tile window's block at point `t`: points `1024·(t % 2) + p` of cloud `t / 2` of the first argument. -/
theorem iblk0_apply (c : Dev nD) (t : Fin cfg0.N) (u : Fin 1) (p : Fin 1024) (k : Fin 3) :
    (iblk m c 0 t : Vec F S1x1024x3 .f32) (ix3 u p k)
      = m ((c : Thread nD τ).loc main_arg0) (ix3 (cloudOf t) (row (halfOf t) p) k) := by
  unfold iblk
  rw [View.read_apply]
  show V m c main_arg0 _ = _
  rw [V_main_arg0]
  refine congrArg _ (funext fun a => Fin.ext ?_)
  obtain ⟨⟨e0, e1, e2⟩, -⟩ := idx_facts t
  match a with
  | ⟨0, _⟩ => show win0_0.index t (0 : Fin 3) * 1 + 1 * u.val = t.val / 2; rw [e0]; have := u.isLt; omega
  | ⟨1, _⟩ => show win0_0.index t (1 : Fin 3) * 1024 + 1 * p.val = t.val % 2 * 1024 + p.val; rw [e1]; omega
  | ⟨2, _⟩ => show win0_0.index t (2 : Fin 3) * 3 + 1 * k.val = k.val; rw [e2]; omega

/-- The array the cloud window stages is the second argument with its last two axes exchanged. -/
theorem v0_eq (c : Dev nD) : (V m c main_v0 : S16x3x2048.Idx → Elt F .f32)
    = transpose S16x3x2048 [0, 2, 1] (m ((c : Thread nD τ).loc main_arg1)) transposes_S16x2048x3_S16x3x2048_0_2_1 := by
  show StableHlo.after hostOps0 (fun b => m (c, b)) (Proc.devRef .tc main_v0) = _
  after_results

/-- The cloud window's block at point `t`: entry `(k, c')` is coordinate `k` of point `c'` of cloud `t / 2` of the second
    argument. -/
theorem iblk1_apply (c : Dev nD) (t : Fin cfg0.N) (u : Fin 1) (k : Fin 3) (c' : Fin 2048) :
    (iblk m c 1 t : Vec F S1x3x2048 .f32) (ix3 u k c')
      = m ((c : Thread nD τ).loc main_arg1) (ix3 (cloudOf t) c' k) := by
  unfold iblk
  rw [View.read_apply]
  show V m c main_v0 _ = _
  rw [v0_eq]
  refine transpose_apply _ _ _ _ (ix3 (cloudOf t) c' k) fun b => ?_
  obtain ⟨-, ⟨e0, e1, e2⟩, -⟩ := idx_facts t
  match b with
  | ⟨0, _⟩ => show t.val / 2 = win0_1.index t (0 : Fin 3) * 1 + 1 * u.val; rw [e0]; have := u.isLt; omega
  | ⟨1, _⟩ => show k.val = win0_1.index t (1 : Fin 3) * 3 + 1 * k.val; rw [e1]; omega
  | ⟨2, _⟩ => show c'.val = win0_1.index t (2 : Fin 3) * 2048 + 1 * c'.val; rw [e2]; omega

end Cert.KernelIdeal.Blocks

end
-- ==== Proof.KernelPieces.lean ====
/-
  What one grid step of the kernel leaves in its two carried accumulators and in its two output blocks, as values.

  A step loads a tile of 1024 points of the first cloud and all 2048 points of the second, forms the 1024 × 2048 tile
  of pairwise squared distances (`tileOf`), and updates two accumulators: the scalar running sum takes in the sum over
  the tile's rows of the row minima (`sumStep`), the row of 2048 running minima takes in the tile's column minima
  (`minStep`). A first step of a cloud (case A) starts the accumulators at zero and at +∞ before updating; a last step
  (case B) continues from what the step before left and then writes the scalar out as the first output block and the
  sum of the row of minima as the second. These are read off the stores each case performs, for any float instance.
-/
import proofs.«143833_j14645838479503_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The tile of pairwise squared distances of a block of 1024 points against a block of 2048 points. -/
def tileOf (x0 : Vec F S1x1024x3 .f32) (x1 : Vec F S1x3x2048 .f32) : FVec F S1024x2048 .f32 :=
  k0_pay1 (k0_pay9 x1) (k0_pay10 x0) (k0_pay11 x1) (k0_pay12 x0) (k0_pay13 x0 x1) (k0_pay14 x1) (k0_pay15 x0)

/-- The running sum after a step: what it held plus the sum of the tile's row minima. -/
def sumStep (x0 : Vec F S1x1024x3 .f32) (x1 : Vec F S1x3x2048 .f32) (s : Vec F S1x1 .f32) : FVec F S1x1 .f32 :=
  k0_pay2 (k0_pay9 x1) (k0_pay10 x0) (k0_pay11 x1) (k0_pay12 x0) (k0_pay13 x0 x1) (k0_pay14 x1) (k0_pay15 x0) s

/-- The running minima after a step: the minimum of what they held and the tile's column minima. -/
def minStep (x0 : Vec F S1x1024x3 .f32) (x1 : Vec F S1x3x2048 .f32) (a : Vec F S1x2048 .f32) : FVec F S1x2048 .f32 :=
  k0_pay3 (k0_pay9 x1) (k0_pay10 x0) (k0_pay11 x1) (k0_pay12 x0) (k0_pay13 x0 x1) (k0_pay14 x1) (k0_pay15 x0) a

/-- A first step leaves the running minima at the update of the row of +∞. -/
theorem sout_A_0 (c : Dev nD) (i : grid0.Coords) (arg2 : Memref sig .tc .vmem S1x1024x3 .f32) (harg2 : arg2.IsWhole) (arg3 : Memref sig .tc .vmem S1x3x2048 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x1 .f32) (harg7 : arg7.IsWhole) (hc0 : cond0_0 i) (hc1 : ¬cond0_1 i)
    (x0 : Vec F S1x1024x3 .f32) (x1 : Vec F S1x3x2048 .f32) :
    sout0_A_0 c i arg2 harg2 arg3 harg3 arg4 harg4 arg5 harg5 arg6 harg6 arg7 harg7 hc0 hc1 x0 x1 = minStep x0 x1 (k0_pay6 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S1x2048) hz2, View.readCov_unit_zero (S := S1x2048) _ hz2]
  unfold minStep
  simp only [View.readAt_eq_ld, harg2.read_unread, harg3.read_unread, harg6.read_unread, harg7.read_unread, View.ld_unit_zero (S := S1x1024x3) hz3, View.ld_unit_zero (S := S1x3x2048) hz3, View.ld_unit_zero (S := S1x2048) hz2, View.ld_unit_zero (S := S1x1) hz2]

/-- A first step leaves the running sum at the update of zero. -/
theorem sout_A_1 (c : Dev nD) (i : grid0.Coords) (arg2 : Memref sig .tc .vmem S1x1024x3 .f32) (harg2 : arg2.IsWhole) (arg3 : Memref sig .tc .vmem S1x3x2048 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x1 .f32) (harg7 : arg7.IsWhole) (hc0 : cond0_0 i) (hc1 : ¬cond0_1 i)
    (x0 : Vec F S1x1024x3 .f32) (x1 : Vec F S1x3x2048 .f32) :
    sout0_A_1 c i arg2 harg2 arg3 harg3 arg4 harg4 arg5 harg5 arg6 harg6 arg7 harg7 hc0 hc1 x0 x1 = sumStep x0 x1 (k0_pay7 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S1x1) hz2, View.readCov_unit_zero (S := S1x1) _ hz2]
  unfold sumStep
  simp only [View.readAt_eq_ld, harg2.read_unread, harg3.read_unread, harg6.read_unread, harg7.read_unread, View.ld_unit_zero (S := S1x1024x3) hz3, View.ld_unit_zero (S := S1x3x2048) hz3, View.ld_unit_zero (S := S1x2048) hz2, View.ld_unit_zero (S := S1x1) hz2]

/-- A last step leaves the running minima at the update of what the step before left. -/
theorem sout_B_0 (c : Dev nD) (i : grid0.Coords) (arg2 : Memref sig .tc .vmem S1x1024x3 .f32) (harg2 : arg2.IsWhole) (arg3 : Memref sig .tc .vmem S1x3x2048 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : cond0_1 i)
    (x0 : Vec F S1x1024x3 .f32) (x1 : Vec F S1x3x2048 .f32) (xs0 : Vec F S1x2048 .f32) (xs1 : Vec F S1x1 .f32) :
    sout0_B_0 c i arg2 harg2 arg3 harg3 arg4 harg4 arg5 harg5 arg6 harg6 arg7 harg7 hc0 hc1 x0 x1 xs0 xs1 = minStep x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero (S := S1x2048) hz2]
  unfold minStep
  simp only [View.readAt_eq_ld, harg2.read_unread, harg3.read_unread, harg6.read_unread, harg7.read_unread, View.ld_unit_zero (S := S1x1024x3) hz3, View.ld_unit_zero (S := S1x3x2048) hz3, View.ld_unit_zero (S := S1x2048) hz2, View.ld_unit_zero (S := S1x1) hz2]

/-- A last step leaves the running sum at the update of what the step before left. -/
theorem sout_B_1 (c : Dev nD) (i : grid0.Coords) (arg2 : Memref sig .tc .vmem S1x1024x3 .f32) (harg2 : arg2.IsWhole) (arg3 : Memref sig .tc .vmem S1x3x2048 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : cond0_1 i)
    (x0 : Vec F S1x1024x3 .f32) (x1 : Vec F S1x3x2048 .f32) (xs0 : Vec F S1x2048 .f32) (xs1 : Vec F S1x1 .f32) :
    sout0_B_1 c i arg2 harg2 arg3 harg3 arg4 harg4 arg5 harg5 arg6 harg6 arg7 harg7 hc0 hc1 x0 x1 xs0 xs1 = sumStep x0 x1 xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero (S := S1x1) hz2]
  unfold sumStep
  simp only [View.readAt_eq_ld, harg2.read_unread, harg3.read_unread, harg6.read_unread, harg7.read_unread, View.ld_unit_zero (S := S1x1024x3) hz3, View.ld_unit_zero (S := S1x3x2048) hz3, View.ld_unit_zero (S := S1x2048) hz2, View.ld_unit_zero (S := S1x1) hz2]

/-- A last step writes the updated running sum out as the first output block. -/
theorem out_B_2 (c : Dev nD) (i : grid0.Coords) (arg2 : Memref sig .tc .vmem S1x1024x3 .f32) (harg2 : arg2.IsWhole) (arg3 : Memref sig .tc .vmem S1x3x2048 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : cond0_1 i)
    (x0 : Vec F S1x1024x3 .f32) (x1 : Vec F S1x3x2048 .f32) (xs0 : Vec F S1x2048 .f32) (xs1 : Vec F S1x1 .f32) :
    out0_B_2 c i arg2 harg2 arg3 harg3 arg4 harg4 arg5 harg5 arg6 harg6 arg7 harg7 hc0 hc1 x0 x1 xs0 xs1 = k0_pay4 (sumStep x0 x1 xs1) := by
  unfold out0_B_2
  rw [View.read_writes_eq_canon _ _ _ (cover0_B_2 c i arg2 harg2 arg3 harg3 arg4 harg4 arg5 harg5 arg6 harg6 arg7 harg7 hc0 hc1 x0 x1 xs0 xs1)]
  unfold kernelRun0_B
  dsimp only
  sl_unfold_words
  rw [View.canon_unit_zero (S := S1x1x1) hz3, View.readCov_unit_zero (S := S1x1) _ hz2]
  unfold sumStep
  simp only [View.readAt_eq_ld, harg2.read_unread, harg3.read_unread, harg6.read_unread, harg7.read_unread, View.ld_unit_zero (S := S1x1024x3) hz3, View.ld_unit_zero (S := S1x3x2048) hz3, View.ld_unit_zero (S := S1x2048) hz2, View.ld_unit_zero (S := S1x1) hz2]

/-- A last step writes the sum of the updated running minima out as the second output block. -/
theorem out_B_3 (c : Dev nD) (i : grid0.Coords) (arg2 : Memref sig .tc .vmem S1x1024x3 .f32) (harg2 : arg2.IsWhole) (arg3 : Memref sig .tc .vmem S1x3x2048 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : cond0_1 i)
    (x0 : Vec F S1x1024x3 .f32) (x1 : Vec F S1x3x2048 .f32) (xs0 : Vec F S1x2048 .f32) (xs1 : Vec F S1x1 .f32) :
    out0_B_3 c i arg2 harg2 arg3 harg3 arg4 harg4 arg5 harg5 arg6 harg6 arg7 harg7 hc0 hc1 x0 x1 xs0 xs1 = k0_pay5 (minStep x0 x1 xs0) := by
  unfold out0_B_3
  rw [View.read_writes_eq_canon _ _ _ (cover0_B_3 c i arg2 harg2 arg3 harg3 arg4 harg4 arg5 harg5 arg6 harg6 arg7 harg7 hc0 hc1 x0 x1 xs0 xs1)]
  unfold kernelRun0_B
  dsimp only
  sl_unfold_words
  rw [View.canon_unit_zero (S := S1x1x1) hz3, View.readCov_unit_zero (S := S1x2048) _ hz2]
  unfold minStep
  simp only [View.readAt_eq_ld, harg2.read_unread, harg3.read_unread, harg6.read_unread, harg7.read_unread, View.ld_unit_zero (S := S1x1024x3) hz3, View.ld_unit_zero (S := S1x3x2048) hz3, View.ld_unit_zero (S := S1x2048) hz2, View.ld_unit_zero (S := S1x1) hz2]

end Cert.KernelIdeal.Pieces

end
-- ==== Proof.KernelTile.lean ====
/-
  One grid step's arithmetic read at an index, on the extended reals.

  The step's two loaded blocks are a tile of 1024 points `x0 (0, p, ·)` and the 2048 points `x1 (0, ·, c)` (the second
  block holds one coordinate per row). Entry `(p, c)` of the tile of pairwise values is the expanded squared distance
  of point `p` and point `c`: the cross term over `-2·x`, then the two squared norms. The running sum takes in the sum
  over `p` of the infimum over `c`; the running minima take in, at `c`, the infimum over `p`. The two output blocks are
  the running sum itself and the sum over `c` of the running minima.
-/
import proofs.«143833_j14645838479503_2_alg».proof.Proof.KernelPieces
import proofs.«143833_j14645838479503_2_alg».proof.Proof.ChamferSpec
import proofs.«143833_j14645838479503_2_alg».proof.Proof.LibTileLayout

noncomputable section

open scoped BigOperators

open Idealize.ShloMosaic Idealize.ShloMosaic.ValueIdx

namespace Cert.KernelIdeal.Tile

open Cert.KernelIdeal Cert.KernelIdeal.Gen Cert.KernelIdeal.Pieces Cert.Chamfer

/-- Point `p` of the tile block. -/
def ptA (x0 : Vec Ideal S1x1024x3 .f32) (p : Fin 1024) : Fin 3 → EReal := fun k => x0 (ix3 (0 : Fin 1) p k)
/-- Point `c` of the cloud block, which holds one coordinate per row. -/
def ptB (x1 : Vec Ideal S1x3x2048 .f32) (c : Fin 2048) : Fin 3 → EReal := fun k => x1 (ix3 (0 : Fin 1) k c)

/-- The tile block without its unit axis. -/
theorem pay8_apply (x0 : Vec Ideal S1x1024x3 .f32) (p : Fin 1024) (k : Fin 3) :
    k0_pay8 x0 (ix2 p k) = x0 (ix3 (0 : Fin 1) p k) :=
  shapeCast_apply x0 _ (ix2 p k) (ix3 (0 : Fin 1) p k) (by
    rw [Shape.rowMajor_val_three, Shape.rowMajor_val_two]
    show ((0 * 1024 + p.val) * 3 + k.val) = p.val * 3 + k.val
    rw [Nat.zero_mul, Nat.zero_add])

/-- The cloud block without its unit axis. -/
theorem pay9_apply (x1 : Vec Ideal S1x3x2048 .f32) (k : Fin 3) (c : Fin 2048) :
    k0_pay9 x1 (ix2 k c) = x1 (ix3 (0 : Fin 1) k c) :=
  shapeCast_apply x1 _ (ix2 k c) (ix3 (0 : Fin 1) k c) (by
    rw [Shape.rowMajor_val_three, Shape.rowMajor_val_two]
    show ((0 * 3 + k.val) * 2048 + c.val) = k.val * 2048 + c.val
    rw [Nat.zero_mul, Nat.zero_add])

/-- The tile block scaled by the word of `-2`. -/
theorem pay12_apply (x0 : Vec Ideal S1x1024x3 .f32) (p : Fin 1024) (k : Fin 3) :
    k0_pay12 x0 (ix2 p k) = x0 (ix3 (0 : Fin 1) p k) * m2w := by
  show k0_pay8 x0 (ix2 p k) * Ideal.ofBits .f32 0xC0000000#32 = _
  rw [pay8_apply]; rfl

/-- Column `d` of a `[1024, 3]` matrix spread along the rows of the tile. -/
theorem col_apply (V : FVec Ideal S1024x3 .f32) (d : ℕ) (hs : S1024x3.Slices ![0, d] S1024x1) (p : Fin 1024) (c : Fin 2048)
    (k : Fin 3) (hk : k.val = d) :
    broadcastTo S1024x2048 (extractStridedSlice S1024x1 ![0, d] V hs) broadcasts_S1024x1_S1024x2048 (ix2 p c) = V (ix2 p k) :=
  Cert.LibTileLayout.broadcastTo_sliceCol_apply d V hs broadcasts_S1024x1_S1024x2048 p c k hk

/-- Row `d` of a `[3, 2048]` matrix spread along the columns of the tile. -/
theorem rowd_apply (W : FVec Ideal S3x2048 .f32) (d : ℕ) (hs : S3x2048.Slices ![d, 0] S1x2048) (p : Fin 1024) (c : Fin 2048)
    (k : Fin 3) (hk : k.val = d) :
    broadcastTo S1024x2048 (extractStridedSlice S1x2048 ![d, 0] W hs) broadcasts_S1x2048_S1024x2048 (ix2 p c) = W (ix2 k c) :=
  (broadcastTo_1b_ab_apply _ broadcasts_S1x2048_S1024x2048 p c).trans
    (slice2_axis0_apply d W hs (0 : Fin 1) c k (by rw [hk]; rfl))

/-- The squared norm of point `p` of the tile, as a column. -/
theorem pay10_apply (x0 : Vec Ideal S1x1024x3 .f32) (p : Fin 1024) (u : Fin 1) :
    k0_pay10 x0 (ix2 p u) = ((zw + ptA x0 p 0 * ptA x0 p 0) + ptA x0 p 1 * ptA x0 p 1) + ptA x0 p 2 * ptA x0 p 2 := by
  have e : ∀ (d : ℕ) (hs : S1024x3.Slices ![0, d] S1024x1) (k : Fin 3) (hk : k.val = d),
      extractStridedSlice S1024x1 ![0, d] (k0_pay8 x0) hs (ix2 p u) = x0 (ix3 (0 : Fin 1) p k) := fun d hs k hk =>
    (slice2_axis1_apply d (k0_pay8 x0) hs p u k (by rw [hk]; have := u.isLt; omega)).trans (pay8_apply x0 p k)
  show ((Ideal.ofBits .f32 0x00000000#32 + extractStridedSlice S1024x1 ![0, 0] (k0_pay8 x0) _ (ix2 p u) * extractStridedSlice S1024x1 ![0, 0] (k0_pay8 x0) _ (ix2 p u))
      + extractStridedSlice S1024x1 ![0, 1] (k0_pay8 x0) _ (ix2 p u) * extractStridedSlice S1024x1 ![0, 1] (k0_pay8 x0) _ (ix2 p u))
      + extractStridedSlice S1024x1 ![0, 2] (k0_pay8 x0) _ (ix2 p u) * extractStridedSlice S1024x1 ![0, 2] (k0_pay8 x0) _ (ix2 p u) = _
  rw [e 0 _ 0 rfl, e 1 _ 1 rfl, e 2 _ 2 rfl]; rfl

/-- The squared norm of point `c` of the cloud, as a row. -/
theorem pay11_apply (x1 : Vec Ideal S1x3x2048 .f32) (u : Fin 1) (c : Fin 2048) :
    k0_pay11 x1 (ix2 u c) = ((zw + ptB x1 c 0 * ptB x1 c 0) + ptB x1 c 1 * ptB x1 c 1) + ptB x1 c 2 * ptB x1 c 2 := by
  have e : ∀ (d : ℕ) (hs : S3x2048.Slices ![d, 0] S1x2048) (k : Fin 3) (hk : k.val = d),
      extractStridedSlice S1x2048 ![d, 0] (k0_pay9 x1) hs (ix2 u c) = x1 (ix3 (0 : Fin 1) k c) := fun d hs k hk =>
    (slice2_axis0_apply d (k0_pay9 x1) hs u c k (by rw [hk]; have := u.isLt; omega)).trans (pay9_apply x1 k c)
  show ((Ideal.ofBits .f32 0x00000000#32 + extractStridedSlice S1x2048 ![0, 0] (k0_pay9 x1) _ (ix2 u c) * extractStridedSlice S1x2048 ![0, 0] (k0_pay9 x1) _ (ix2 u c))
      + extractStridedSlice S1x2048 ![1, 0] (k0_pay9 x1) _ (ix2 u c) * extractStridedSlice S1x2048 ![1, 0] (k0_pay9 x1) _ (ix2 u c))
      + extractStridedSlice S1x2048 ![2, 0] (k0_pay9 x1) _ (ix2 u c) * extractStridedSlice S1x2048 ![2, 0] (k0_pay9 x1) _ (ix2 u c) = _
  rw [e 0 _ 0 rfl, e 1 _ 1 rfl, e 2 _ 2 rfl]; rfl

/-- Entry `(p, c)` of the tile is the expanded squared distance of point `p` of the tile and point `c` of the cloud. -/
theorem tileOf_apply (x0 : Vec Ideal S1x1024x3 .f32) (x1 : Vec Ideal S1x3x2048 .f32) (p : Fin 1024) (c : Fin 2048) :
    tileOf x0 x1 (ix2 p c) = sqdX (ptA x0 p) (ptB x1 c) := by
  have a : ∀ (d : ℕ) (hs : S1024x3.Slices ![0, d] S1024x1) (k : Fin 3) (hk : k.val = d),
      broadcastTo S1024x2048 (extractStridedSlice S1024x1 ![0, d] (k0_pay12 x0) hs) broadcasts_S1024x1_S1024x2048 (ix2 p c)
        = ptA x0 p k * m2w := fun d hs k hk => (col_apply (k0_pay12 x0) d hs p c k hk).trans (pay12_apply x0 p k)
  have b : ∀ (d : ℕ) (hs : S3x2048.Slices ![d, 0] S1x2048) (k : Fin 3) (hk : k.val = d),
      broadcastTo S1024x2048 (extractStridedSlice S1x2048 ![d, 0] (k0_pay9 x1) hs) broadcasts_S1x2048_S1024x2048 (ix2 p c)
        = ptB x1 c k := fun d hs k hk => (rowd_apply (k0_pay9 x1) d hs p c k hk).trans (pay9_apply x1 k c)
  have n1 : broadcastTo S1024x2048 (k0_pay10 x0) broadcasts_S1024x1_S1024x2048 (ix2 p c)
      = ((zw + ptA x0 p 0 * ptA x0 p 0) + ptA x0 p 1 * ptA x0 p 1) + ptA x0 p 2 * ptA x0 p 2 :=
    (Cert.LibKeepdims.broadcastTo_a1_ab_apply _ broadcasts_S1024x1_S1024x2048 p c (0 : Fin 1)).trans (pay10_apply x0 p 0)
  have n2 : broadcastTo S1024x2048 (k0_pay11 x1) broadcasts_S1x2048_S1024x2048 (ix2 p c)
      = ((zw + ptB x1 c 0 * ptB x1 c 0) + ptB x1 c 1 * ptB x1 c 1) + ptB x1 c 2 * ptB x1 c 2 :=
    (broadcastTo_1b_ab_apply _ broadcasts_S1x2048_S1024x2048 p c).trans (pay11_apply x1 0 c)
  unfold tileOf k0_pay1 k0_pay13 k0_pay14 k0_pay15
  show ((((Ideal.ofBits .f32 0x00000000#32
            + broadcastTo S1024x2048 (extractStridedSlice S1024x1 ![0, 0] (k0_pay12 x0) _) _ (ix2 p c)
              * broadcastTo S1024x2048 (extractStridedSlice S1x2048 ![0, 0] (k0_pay9 x1) _) _ (ix2 p c))
          + broadcastTo S1024x2048 (extractStridedSlice S1024x1 ![0, 1] (k0_pay12 x0) _) _ (ix2 p c)
              * broadcastTo S1024x2048 (extractStridedSlice S1x2048 ![1, 0] (k0_pay9 x1) _) _ (ix2 p c))
        + broadcastTo S1024x2048 (extractStridedSlice S1024x1 ![0, 2] (k0_pay12 x0) _) _ (ix2 p c)
              * broadcastTo S1024x2048 (extractStridedSlice S1x2048 ![2, 0] (k0_pay9 x1) _) _ (ix2 p c))
      + broadcastTo S1024x2048 (k0_pay10 x0) _ (ix2 p c))
    + broadcastTo S1024x2048 (k0_pay11 x1) _ (ix2 p c) = _
  rw [a 0 _ 0 rfl, a 1 _ 1 rfl, a 2 _ 2 rfl, b 0 _ 0 rfl, b 1 _ 1 rfl, b 2 _ 2 rfl, n1, n2]; rfl

end Cert.KernelIdeal.Tile

end
-- ==== Proof.LibAxisSums.lean ====
/-
  Two readings of sums over small index sets:
  • at the ideal values a float sum reduction over the FIRST axis of an `[a, b]` matrix, read at column `c`, is the sum
    over `r : Fin a` of the entries `(r, c)` (the companion of the last-axis reading, which sums a row);
  • a rank-1 index set `[n]` is its one coordinate's range, so a sum over it is the sum over `Fin n` at `ix1`.
-/
import Idealize.ShloMosaic.Lib.ValueIdx
import Idealize.ShloMosaic.PureOps.Ideal.Laws

noncomputable section

open scoped BigOperators

namespace Cert.LibAxisSums

open Idealize.ShloMosaic Idealize.ShloMosaic.ValueIdx

/-- At the ideal values a float sum reduction over the FIRST axis of an `[a, b]` matrix, read at column `c`, is the sum
    of that column's `a` entries. -/
theorem multiReduction_add_firstAxis_apply {a b : ℕ} (src : FVec Ideal ⟨2, ![a, b]⟩ .f32) (acc : BitVec 32)
    (h : (⟨2, ![a, b]⟩ : Shape).Reduces [0] ⟨1, ![b]⟩) (hφ : FKind.Formats .f32) (hacc : acc = FKind.add.neutral .f32 hφ)
    (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src ?_
  funext ax; apply Fin.ext
  match ax with
  | ⟨0, _⟩ => rfl
  | ⟨1, _⟩ => rfl

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

end Cert.LibAxisSums

end
-- ==== Proof.KernelAccum.lean ====
/-
  What one step's two accumulator updates and the two output writes compute, read at an index, with the tile of
  pairwise squared distances kept as an opaque 1024 × 2048 matrix.

  The running sum takes in the sum over the tile's 1024 rows of each row's infimum over its 2048 entries: the row
  minima are a last-axis minimum from the word of `+∞`, kept as a column, and the column is summed along its first
  axis. The running minima take in, per column, the infimum over the column's 1024 entries: a first-axis minimum from
  the word of `+∞`, turned into a row. The first output block is the running sum itself; the second is the sum of the
  2048 running minima. The accumulators start at the word of `+∞` everywhere and at the zero word.
-/
import proofs.«143833_j14645838479503_2_alg».proof.Proof.KernelPieces
import proofs.«143833_j14645838479503_2_alg».proof.Proof.ChamferSpec
import proofs.«143833_j14645838479503_2_alg».proof.Proof.LibTileLayout
import proofs.«143833_j14645838479503_2_alg».proof.Proof.LibKeepdims
import proofs.«143833_j14645838479503_2_alg».proof.Proof.LibAxisSums

noncomputable section

open scoped BigOperators

namespace Cert.KernelIdeal.Accum

open Cert.KernelIdeal Cert.KernelIdeal.Gen Cert.KernelIdeal.Pieces Cert.Chamfer Idealize.ShloMosaic Idealize.ShloMosaic.ValueIdx
open Cert.LibAxisSums (multiReduction_add_firstAxis_apply)

/-- The one entry of a `[1, 1]` matrix cast to `[1, 1, 1]`: both indices sit at row-major position `0`. -/
theorem shapeCast_11_111_apply {α : Type} (x : (⟨2, ![1, 1]⟩ : Shape).Idx → α)
    (h : (⟨2, ![1, 1]⟩ : Shape).ShapeCasts ⟨3, ![1, 1, 1]⟩) :
    shapeCast ⟨3, ![1, 1, 1]⟩ x h (ix3 (0 : Fin 1) (0 : Fin 1) (0 : Fin 1)) = x (ix2 (0 : Fin 1) (0 : Fin 1)) :=
  shapeCast_apply x h _ _ (by rw [Shape.rowMajor_val_two, Shape.rowMajor_val_three]; rfl)

/-- The update of the running sum over an arbitrary tile `T`: what it held plus the sum of `T`'s row infima. -/
theorem sum_core (T : FVec Ideal S1024x2048 .f32) (s : FVec Ideal S1x1 .f32)
    (h1 : S1024x2048.Reduces [1] S1024) (hφ1 : FKind.Formats .f32)
    (hacc1 : (0x7F800000#32 : BitVec 32) = FKind.minimumf.neutral .f32 hφ1) (hc1 : S1024.ShapeCasts S1024x1)
    (h2 : S1024x1.Reduces [0] S1) (hφ2 : FKind.Formats .f32)
    (hacc2 : (0x00000000#32 : BitVec 32) = FKind.add.neutral .f32 hφ2) (hc2 : S1.ShapeCasts S1x1)
    (hc3 : S1x1.ShapeCasts S1x1) :
    shapeCast S1x1
        (addf s (shapeCast S1x1
          (multiReduction .add [0] S1
            (shapeCast S1024x1 (multiReduction .minimumf [1] S1024 T 0x7F800000#32 h1 hφ1 hacc1) hc1)
            0x00000000#32 h2 hφ2 hacc2) hc2)) hc3 (ix2 (0 : Fin 1) (0 : Fin 1))
      = s (ix2 (0 : Fin 1) (0 : Fin 1)) + ∑ p : Fin 1024, Finset.univ.inf fun c : Fin 2048 => T (ix2 p c) := by
  rw [shapeCast_self, addf_apply]
  congr 1
  refine (shapeCast_a_1a_apply _ hc2 (0 : Fin 1) (0 : Fin 1)).trans ?_
  refine (multiReduction_add_firstAxis_apply _ _ h2 hφ2 hacc2 (0 : Fin 1)).trans ?_
  refine Finset.sum_congr rfl fun p _ => ?_
  refine (Cert.LibKeepdims.shapeCast_a_a1_apply _ hc1 p (0 : Fin 1)).trans ?_
  exact Cert.LibTileLayout.multiReduction_minimumf_lastAxis_apply T _ h1 hφ1 hacc1
    Cert.LibTileLayout.ofBits_posInf_f32 p

/-- The update of the running minima over an arbitrary tile `T`: per column, the minimum of what was held and the
    infimum of `T`'s column. -/
theorem min_core (T : FVec Ideal S1024x2048 .f32) (a : FVec Ideal S1x2048 .f32)
    (h1 : S1024x2048.Reduces [0] S2048) (hφ1 : FKind.Formats .f32)
    (hacc1 : (0x7F800000#32 : BitVec 32) = FKind.minimumf.neutral .f32 hφ1) (hc1 : S2048.ShapeCasts S1x2048)
    (hc2 : S1x2048.ShapeCasts S1x2048) (c : Fin 2048) :
    shapeCast S1x2048
        (minimumf a (shapeCast S1x2048 (multiReduction .minimumf [0] S2048 T 0x7F800000#32 h1 hφ1 hacc1) hc1)) hc2
        (ix2 (0 : Fin 1) c)
      = min (a (ix2 (0 : Fin 1) c)) (Finset.univ.inf fun p : Fin 1024 => T (ix2 p c)) := by
  rw [shapeCast_self, minimumf_apply]
  refine congrArg (min (a (ix2 (0 : Fin 1) c))) ?_
  refine (shapeCast_a_1a_apply _ hc1 (0 : Fin 1) c).trans ?_
  exact Cert.LibTileLayout.multiReduction_minimumf_firstAxis_apply T _ h1 hφ1 hacc1
    Cert.LibTileLayout.ofBits_posInf_f32 c

/-- The running sum after a step is what it held plus the sum over the tile's rows of the row infima. -/
theorem sumStep_apply (x0 : Vec Ideal S1x1024x3 .f32) (x1 : Vec Ideal S1x3x2048 .f32) (s : Vec Ideal S1x1 .f32) :
    sumStep x0 x1 s (ix2 (0 : Fin 1) (0 : Fin 1))
      = s (ix2 (0 : Fin 1) (0 : Fin 1))
        + ∑ p : Fin 1024, Finset.univ.inf fun c : Fin 2048 => tileOf x0 x1 (ix2 p c) := by
  unfold sumStep k0_pay2
  exact sum_core (tileOf x0 x1) s _ _ _ _ _ _ _ _ _

/-- The running minimum of column `c` after a step is the minimum of what it held and the column's infimum. -/
theorem minStep_apply (x0 : Vec Ideal S1x1024x3 .f32) (x1 : Vec Ideal S1x3x2048 .f32) (a : Vec Ideal S1x2048 .f32)
    (c : Fin 2048) :
    minStep x0 x1 a (ix2 (0 : Fin 1) c)
      = min (a (ix2 (0 : Fin 1) c)) (Finset.univ.inf fun p : Fin 1024 => tileOf x0 x1 (ix2 p c)) := by
  unfold minStep k0_pay3
  exact min_core (tileOf x0 x1) a _ _ _ _ _ c

/-- The first output block holds the running sum. -/
theorem pay4_apply (v : Vec Ideal S1x1 .f32) :
    k0_pay4 v (ix3 (0 : Fin 1) (0 : Fin 1) (0 : Fin 1)) = v (ix2 (0 : Fin 1) (0 : Fin 1)) := by
  unfold k0_pay4
  exact shapeCast_11_111_apply v _

/-- The second output block holds the sum of the 2048 running minima. -/
theorem pay5_apply (v : Vec Ideal S1x2048 .f32) :
    k0_pay5 v (ix3 (0 : Fin 1) (0 : Fin 1) (0 : Fin 1)) = ∑ c : Fin 2048, v (ix2 (0 : Fin 1) c) := by
  unfold k0_pay5
  refine (shapeCast_11_111_apply _ _).trans ?_
  refine (shapeCast_a_1a_apply _ _ (0 : Fin 1) (0 : Fin 1)).trans ?_
  exact Cert.LibKeepdims.multiReduction_add_lastAxis_apply v _ _ _ _ (0 : Fin 1)

/-- The running minima start at `⊤`. -/
theorem pay6_apply (c : Fin 2048) : k0_pay6 (F := Ideal) (ix2 (0 : Fin 1) c) = (⊤ : EReal) := by
  unfold k0_pay6
  rw [shapeCast_self]
  exact Cert.LibTileLayout.ofBits_posInf_f32

/-- The running sum starts at the zero word. -/
theorem pay7_apply : k0_pay7 (F := Ideal) (ix2 (0 : Fin 1) (0 : Fin 1)) = zw := by
  unfold k0_pay7
  rw [shapeCast_self]
  rfl

end Cert.KernelIdeal.Accum

end
-- ==== Proof.KernelSteps.lean ====
/-
  What the kernel's two output blocks hold after the last step of a cloud, as the tiled chamfer sums of that cloud.

  Point `t` of the grid is step `t % 2` of cloud `t / 2`. After a cloud's first step the running sum holds the zero word
  plus the first half's sum of row infima, and the running minima hold, per point of the second cloud, the minimum of
  `⊤` and the first half's column infimum. The cloud's second step adds the second half's sum and takes in the second
  half's column infima, then writes the running sum out as the first output block and the sum of the running minima as
  the second: the two tiled totals `tiled1` and `tiled2` of the cloud.
-/
import proofs.«143833_j14645838479503_2_alg».proof.Proof.KernelBlocks
import proofs.«143833_j14645838479503_2_alg».proof.Proof.KernelTile
import proofs.«143833_j14645838479503_2_alg».proof.Proof.KernelAccum

noncomputable section

open scoped BigOperators

open Idealize.ShloMosaic Idealize.ShloMosaic.TcCoe Idealize.SL.Sem Idealize.ShloMosaic.ValueIdx

namespace Cert.KernelIdeal.Steps

open Cert.KernelIdeal Cert.KernelIdeal.Gen Cert.KernelIdeal.Pieces Cert.KernelIdeal.Tile Cert.KernelIdeal.Accum
open Cert.KernelIdeal.Blocks Cert.Chamfer

variable (m : (ℓ : Loc nD τ sig) → Buf (Elt Ideal) ℓ)

/-- The first argument array on core `c`. -/
abbrev argP (c : Dev nD) : Pts := m ((c : Thread nD τ).loc main_arg0)
/-- The second argument array on core `c`. -/
abbrev argQ (c : Dev nD) : Pts := m ((c : Thread nD τ).loc main_arg1)

/-- Point `p` of the tile block at `t` is point `1024·(t % 2) + p` of cloud `t / 2` of the first argument. -/
theorem ptA_iblk (c : Dev nD) (t : Fin cfg0.N) (p : Fin 1024) :
    ptA (iblk m c 0 t) p = pt (argP m c) (cloudOf t) (row (halfOf t) p) :=
  funext fun k => iblk0_apply m c t 0 p k

/-- Point `c'` of the cloud block at `t` is point `c'` of cloud `t / 2` of the second argument. -/
theorem ptB_iblk (c : Dev nD) (t : Fin cfg0.N) (c' : Fin 2048) :
    ptB (iblk m c 1 t) c' = pt (argQ m c) (cloudOf t) c' :=
  funext fun k => iblk1_apply m c t 0 k c'

/-- The tile at point `t`, entry `(p, c')`. -/
theorem tile_at (c : Dev nD) (t : Fin cfg0.N) (p : Fin 1024) (c' : Fin 2048) :
    tileOf (iblk m c 0 t) (iblk m c 1 t) (ix2 p c')
      = sqdX (pt (argP m c) (cloudOf t) (row (halfOf t) p)) (pt (argQ m c) (cloudOf t) c') :=
  (tileOf_apply (iblk m c 0 t) (iblk m c 1 t) p c').trans (by rw [ptA_iblk, ptB_iblk])

/-- The running sum after a step at `t` that started from `s`. -/
theorem sum_at (c : Dev nD) (t : Fin cfg0.N) (s : Vec Ideal S1x1 .f32) :
    sumStep (iblk m c 0 t) (iblk m c 1 t) s (ix2 (0 : Fin 1) (0 : Fin 1))
      = s (ix2 (0 : Fin 1) (0 : Fin 1)) + ∑ p : Fin 1024, rowMin (argP m c) (argQ m c) (cloudOf t) (halfOf t) p :=
  (sumStep_apply (iblk m c 0 t) (iblk m c 1 t) s).trans
    (congrArg (_ + ·) (Finset.sum_congr rfl fun p _ => Finset.inf_congr rfl fun c' _ => tile_at m c t p c'))

/-- The running minima after a step at `t` that started from `a`. -/
theorem min_at (c : Dev nD) (t : Fin cfg0.N) (a : Vec Ideal S1x2048 .f32) (c' : Fin 2048) :
    minStep (iblk m c 0 t) (iblk m c 1 t) a (ix2 (0 : Fin 1) c')
      = min (a (ix2 (0 : Fin 1) c')) (colMin (argP m c) (argQ m c) (cloudOf t) (halfOf t) c') :=
  (minStep_apply (iblk m c 0 t) (iblk m c 1 t) a c').trans
    (congrArg (min _ ·) (Finset.inf_congr rfl fun p _ => tile_at m c t p c'))

/-- After a cloud's first step (an even point) the running minima hold the first update of the row of +∞. -/
theorem carried_min (c : Dev nD) (t : Fin cfg0.N) (h0 : t.val % 2 = 0) :
    (outsAt0 m c t.val t.isLt).2.2.1 = minStep (iblk m c 0 t) (iblk m c 1 t) (k0_pay6 (F := Ideal)) := by
  have h1 : ¬t.val % 2 = 1 := by omega
  rw [outsAt0_A m c t h0 h1]
  dsimp only
  exact sout_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)

/-- After a cloud's first step (an even point) the running sum holds the first update of zero. -/
theorem carried_sum (c : Dev nD) (t : Fin cfg0.N) (h0 : t.val % 2 = 0) :
    (outsAt0 m c t.val t.isLt).2.2.2 = sumStep (iblk m c 0 t) (iblk m c 1 t) (k0_pay7 (F := Ideal)) := by
  have h1 : ¬t.val % 2 = 1 := by omega
  rw [outsAt0_A m c t h0 h1]
  dsimp only
  exact sout_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)

/-- The point before an odd point. -/
def prev (t : Fin cfg0.N) : Fin cfg0.N := ⟨t.val - 1, Nat.lt_of_le_of_lt (Nat.sub_le _ _) t.isLt⟩

/-- After a cloud's last step (an odd point) the two output blocks hold the written-out accumulators. -/
theorem outs_odd (c : Dev nD) (t : Fin cfg0.N) (h1 : t.val % 2 = 1) :
    (outsAt0 m c t.val t.isLt).1 = k0_pay4 (sumStep (iblk m c 0 t) (iblk m c 1 t) (outsAt0 m c (prev t).val (prev t).isLt).2.2.2)
    ∧ (outsAt0 m c t.val t.isLt).2.1 = k0_pay5 (minStep (iblk m c 0 t) (iblk m c 1 t) (outsAt0 m c (prev t).val (prev t).isLt).2.2.1) := by
  have h0 : ¬t.val % 2 = 0 := by omega
  rw [outsAt0_B m c t h0 h1]
  exact ⟨out_B_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (prev t).val (prev t).isLt).2.2.1 (outsAt0 m c (prev t).val (prev t).isLt).2.2.2,
    out_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (prev t).val (prev t).isLt).2.2.1 (outsAt0 m c (prev t).val (prev t).isLt).2.2.2⟩

/-- An odd point and the point before it work on the same cloud, on its second and first half. -/
theorem prev_facts (t : Fin cfg0.N) (h1 : t.val % 2 = 1) :
    (prev t).val % 2 = 0 ∧ cloudOf (prev t) = cloudOf t ∧ halfOf (prev t) = 0 ∧ halfOf t = 1 := by
  refine ⟨?_, Fin.ext ?_, Fin.ext ?_, Fin.ext ?_⟩
  · show (t.val - 1) % 2 = 0; omega
  · show (t.val - 1) / 2 = t.val / 2; omega
  · show (t.val - 1) % 2 = 0; omega
  · show t.val % 2 = 1; exact h1

/-- The first output block after a cloud's last step is the cloud's first tiled total. -/
theorem out2_at (c : Dev nD) (t : Fin cfg0.N) (h1 : t.val % 2 = 1) :
    (outsAt0 m c t.val t.isLt).1 (ix3 (0 : Fin 1) (0 : Fin 1) (0 : Fin 1)) = tiled1 (argP m c) (argQ m c) (cloudOf t) := by
  obtain ⟨hp, hc, hh, hh1⟩ := prev_facts t h1
  rw [(outs_odd m c t h1).1, pay4_apply, sum_at, carried_sum m c (prev t) hp, sum_at, pay7_apply, hc, hh, hh1]
  rfl

/-- The second output block after a cloud's last step is the cloud's second tiled total. -/
theorem out3_at (c : Dev nD) (t : Fin cfg0.N) (h1 : t.val % 2 = 1) :
    (outsAt0 m c t.val t.isLt).2.1 (ix3 (0 : Fin 1) (0 : Fin 1) (0 : Fin 1)) = tiled2 (argP m c) (argQ m c) (cloudOf t) := by
  obtain ⟨hp, hc, hh, hh1⟩ := prev_facts t h1
  rw [(outs_odd m c t h1).2, pay5_apply]
  unfold tiled2
  refine Finset.sum_congr rfl fun c' _ => ?_
  rw [min_at, carried_min m c (prev t) hp, min_at, pay6_apply, hc, hh, hh1]

end Cert.KernelIdeal.Steps

end
-- ==== Proof.KernelArrays.lean ====
/-
  The two result arrays of the kernel after the run: entry `(b, 0, 0)` of the first is the first tiled total of cloud
  `b`, of the second the second tiled total.

  Each output window's block at grid point `t` is entry `t / 2` of its array, and it is written back after the odd points
  only — after a cloud's last step. So the block written back after point `2b + 1` is entry `b`, it holds the cloud's
  tiled total, and the sixteen written-back blocks cover the array.
-/
import proofs.«143833_j14645838479503_2_alg».proof.Proof.KernelSteps

noncomputable section

open scoped BigOperators

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.KernelIdeal.Blocks Cert.KernelIdeal.Steps Cert.Chamfer

variable (m : (ℓ : Loc nD τ sig) → Buf (Elt Ideal) ℓ)

/-- The first result array: entry `(b, ·, ·)` is the first tiled total of cloud `b`. -/
def total1 (c : Dev nD) : S16x1x1.Idx → EReal := fun i => tiled1 (argP m c) (argQ m c) ⟨(i 0).val, (i 0).isLt⟩
/-- The second result array: entry `(b, ·, ·)` is the second tiled total of cloud `b`. -/
def total2 (c : Dev nD) : S16x1x1.Idx → EReal := fun i => tiled2 (argP m c) (argQ m c) ⟨(i 0).val, (i 0).isLt⟩

/-- A block of one entry has one index. -/
theorem idx111 (j : S1x1x1.Idx) : j = ix3 (0 : Fin 1) (0 : Fin 1) (0 : Fin 1) := by
  funext a; apply Fin.ext
  match a with
  | ⟨0, _⟩ => show (j 0).val = 0; have : (j 0).val < 1 := (j 0).isLt; omega
  | ⟨1, _⟩ => show (j 1).val = 0; have : (j 1).val < 1 := (j 1).isLt; omega
  | ⟨2, _⟩ => show (j 2).val = 0; have : (j 2).val < 1 := (j 2).isLt; omega

/-- What an odd point writes back of the first output is the entry of its cloud. -/
theorem flushed2_eq (c : Dev nD) (t : Fin cfg0.N) (hf : (cfg0.win 2).flush t = true) :
    (dats m 0 c).flushed 2 t = ((cfg0.win 2).blk t).view.read (Elt Ideal) (total1 m c) := by
  have h1 : t.val % 2 = 1 := (flush0_2 t).mp hf
  show (cfg0.win 2).cut (grid0.coords t) ((dats m 0 c).after 2 t) = _
  rw [after0_2]
  funext j
  show (outsAt0 m c t.val t.isLt).1 j = total1 m c (((cfg0.win 2).blk t).view.emb j)
  rw [idx111 j, out2_at m c t h1]
  unfold total1
  refine congrArg _ (Fin.ext ?_)
  obtain ⟨-, -, ⟨e0, -, -⟩, -⟩ := idx_facts t
  show t.val / 2 = win0_2.index t (0 : Fin 3) * 1 + 1 * 0
  rw [e0]; omega

/-- What an odd point writes back of the second output is the entry of its cloud. -/
theorem flushed3_eq (c : Dev nD) (t : Fin cfg0.N) (hf : (cfg0.win 3).flush t = true) :
    (dats m 0 c).flushed 3 t = ((cfg0.win 3).blk t).view.read (Elt Ideal) (total2 m c) := by
  have h1 : t.val % 2 = 1 := (flush0_3 t).mp hf
  show (cfg0.win 3).cut (grid0.coords t) ((dats m 0 c).after 3 t) = _
  rw [after0_3]
  funext j
  show (outsAt0 m c t.val t.isLt).2.1 j = total2 m c (((cfg0.win 3).blk t).view.emb j)
  rw [idx111 j, out3_at m c t h1]
  unfold total2
  refine congrArg _ (Fin.ext ?_)
  obtain ⟨-, -, -, ⟨e0, -, -⟩⟩ := idx_facts t
  show t.val / 2 = win0_3.index t (0 : Fin 3) * 1 + 1 * 0
  rw [e0]; omega

/-- The last point of cloud `b`. -/
def lastOf (b : ℕ) (hb : b < 16) : Fin cfg0.N := ⟨2 * b + 1, by have hN : cfg0.N = 32 := N_0; omega⟩

/-- An index of the first result array is in a block iff each coordinate is in the block's range on its axis. -/
theorem mem_blk2 (t : Fin cfg0.N) (i : S16x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v1_0).slice (win0_2.rect t)).set ↔ _
  rw [View.set_slice_whole, Rect.mem_set_unit]
  exact Iff.rfl

/-- The same for the second result array. -/
theorem mem_blk3 (t : Fin cfg0.N) (i : S16x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v1_1).slice (win0_3.rect t)).set ↔ _
  rw [View.set_slice_whole, Rect.mem_set_unit]
  exact Iff.rfl

/-- Every entry of the first result array is written back after the last point of its cloud. -/
theorem cover2 (i : S16x1x1.Idx) : ∃ t : Fin cfg0.N, (cfg0.win 2).flush t = true ∧ i ∈ ((cfg0.win 2).blk t).view.set := by
  have h0 : (i 0).val < 16 := (i 0).isLt
  have h1 : (i 1).val < 1 := (i 1).isLt
  have h2 : (i 2).val < 1 := (i 2).isLt
  refine ⟨lastOf (i 0).val h0, (flush0_2 _).mpr (by show (2 * (i 0).val + 1) % 2 = 1; omega), ?_⟩
  rw [mem_blk2]
  obtain ⟨-, -, ⟨e0, e1, e2⟩, -⟩ := idx_facts (lastOf (i 0).val h0)
  have hv : (lastOf (i 0).val h0).val = 2 * (i 0).val + 1 := rfl
  intro a
  match a with
  | ⟨0, _⟩ => show win0_2.index _ (0 : Fin 3) * 1 ≤ (i 0).val ∧ (i 0).val < win0_2.index _ (0 : Fin 3) * 1 + 1; rw [e0, hv]; omega
  | ⟨1, _⟩ => show win0_2.index _ (1 : Fin 3) * 1 ≤ (i 1).val ∧ (i 1).val < win0_2.index _ (1 : Fin 3) * 1 + 1; rw [e1]; omega
  | ⟨2, _⟩ => show win0_2.index _ (2 : Fin 3) * 1 ≤ (i 2).val ∧ (i 2).val < win0_2.index _ (2 : Fin 3) * 1 + 1; rw [e2]; omega

/-- Every entry of the second result array is written back after the last point of its cloud. -/
theorem cover3 (i : S16x1x1.Idx) : ∃ t : Fin cfg0.N, (cfg0.win 3).flush t = true ∧ i ∈ ((cfg0.win 3).blk t).view.set := by
  have h0 : (i 0).val < 16 := (i 0).isLt
  have h1 : (i 1).val < 1 := (i 1).isLt
  have h2 : (i 2).val < 1 := (i 2).isLt
  refine ⟨lastOf (i 0).val h0, (flush0_3 _).mpr (by show (2 * (i 0).val + 1) % 2 = 1; omega), ?_⟩
  rw [mem_blk3]
  obtain ⟨-, -, -, ⟨e0, e1, e2⟩⟩ := idx_facts (lastOf (i 0).val h0)
  have hv : (lastOf (i 0).val h0).val = 2 * (i 0).val + 1 := rfl
  intro a
  match a with
  | ⟨0, _⟩ => show win0_3.index _ (0 : Fin 3) * 1 ≤ (i 0).val ∧ (i 0).val < win0_3.index _ (0 : Fin 3) * 1 + 1; rw [e0, hv]; omega
  | ⟨1, _⟩ => show win0_3.index _ (1 : Fin 3) * 1 ≤ (i 1).val ∧ (i 1).val < win0_3.index _ (1 : Fin 3) * 1 + 1; rw [e1]; omega
  | ⟨2, _⟩ => show win0_3.index _ (2 : Fin 3) * 1 ≤ (i 2).val ∧ (i 2).val < win0_3.index _ (2 : Fin 3) * 1 + 1; rw [e2]; omega

/-- The first result array after the run. -/
theorem final2 (c : Dev nD) : (dats m 0 c).arrAt 2 cfg0.N = fun i => tiled1 (argP m c) (argQ m c) ⟨(i 0).val, (i 0).isLt⟩ :=
  (dats m 0 c).arrAt_eq_of_cover 2 (total1 m c) (flushed2_eq m c) (cover2)

/-- The second result array after the run. -/
theorem final3 (c : Dev nD) : (dats m 0 c).arrAt 3 cfg0.N = fun i => tiled2 (argP m c) (argQ m c) ⟨(i 0).val, (i 0).isLt⟩ :=
  (dats m 0 c).arrAt_eq_of_cover 3 (total2 m c) (flushed3_eq m c) (cover3)

end Cert.KernelIdeal.Arrays

end
-- ==== Proof.KernelTail.lean ====
/-
  The kernel program's last thirteen host operations, read as the common tail of the chamfer result.

  After its one region the kernel program holds two `[16, 1, 1]` arrays, one total per cloud for each direction. The
  host operations that follow cast each to a vector of 16, sum it from the zero word, divide each sum by the word of
  `32768`, add the two quotients and scale by the word of `1`. A cast of `[16, 1, 1]` to `[16]` reads, at `b`, the
  array at `(b, 0, 0)` (both sit at row-major position `b`); the sum over the rank-1 index set is the sum over its one
  coordinate. So if the two arrays hold `T1 b` and `T2 b` at `(b, 0, 0)`, the program's result is the specification's
  `result T1 T2`, and its two arguments end as they were launched.
-/
import proofs.«143833_j14645838479503_2_alg».proof.Proof.Gen.KernelIdeal.Frame
import proofs.«143833_j14645838479503_2_alg».proof.Proof.ChamferSpec
import proofs.«143833_j14645838479503_2_alg».proof.Proof.LibAxisSums
import Idealize.ShloMosaic.Lib.Pipeline.Value
import Idealize.ShloMosaic.Lib.StableHlo.Run
import Idealize.ShloMosaic.Lib.Tactic
import Idealize.ShloMosaic.PureOps.Ideal.Laws

noncomputable section

open scoped BigOperators

namespace Cert.KernelIdeal.Tail

open Cert.KernelIdeal Cert.KernelIdeal.Gen Cert.Chamfer Idealize.ShloMosaic Idealize.ShloMosaic.TcCoe Idealize.SL.Sem
  Idealize.ShloMosaic.ValueIdx
open Idealize.ShloMosaic.Pipeline (Dat)
open Cert.LibAxisSums (sum_idx1)

/-- The sum of a vector of 16 from the zero word, as a function on the scalar index: the zero word plus the sum of the
    16 entries. -/
theorem reduceAdd_S16 (y : FVec Ideal S16 .f32) :
    Host.reduceAdd (F := Ideal) y (constant (F := Ideal) S_ .f32 0x00000000#32) reducesTo_S16_S_d0 h_S_
      = fun _ => zw + ∑ b : Fin 16, y (ix1 b) := by
  funext i
  simp only [Host.reduceAdd, Ideal.hostReduceAdd_def]
  refine (Ideal.hostReduceAdd_total reducesTo_S16_S_d0 (fun b => b.elim0) y _ i).trans ?_
  exact congrArg₂ (· + ·) rfl (sum_idx1 y)

/-- A `[16, 1, 1]` array cast to a vector of 16 reads, at `b`, the array at `(b, 0, 0)`. -/
theorem shapeCast_S16x1x1_S16_apply {α : Type} (A : S16x1x1.Idx → α) (b : Fin 16) :
    shapeCast S16 A shapeCasts_S16x1x1_S16 (ix1 b) = A (ix3 b (0 : Fin 1) (0 : Fin 1)) :=
  shapeCast_apply A shapeCasts_S16x1x1_S16 _ _ (by
    rw [Shape.rowMajor_val_three, Shape.rowMajor_val_one]
    show (b.val * 1 + 0) * 1 + 0 = b.val
    omega)

variable (m : (ℓ : Loc nD τ sig) → Buf (Elt Ideal) ℓ) (ρ : Dev nD → PrngReg)

/-- The program's result after the host operations that follow the region, from what the region leaves in its two
    output arrays. -/
theorem tail_eq (T1 T2 : Dev nD → Fin 16 → EReal)
    (h2 : ∀ c : Dev nD, (dats m 0 c).arrAt 2 cfg0.N = fun i => T1 c ⟨(i 0).val, (i 0).isLt⟩)
    (h3 : ∀ c : Dev nD, (dats m 0 c).arrAt 3 cfg0.N = fun i => T2 c ⟨(i 0).val, (i 0).isLt⟩) (c : Dev nD) :
    Pipeline.afterTail₀ cfgs (dats m) 0 (V0 m) [hostOps1] c main_v9 = Cert.Chamfer.result (T1 c) (T2 c) := by
  unfold Pipeline.afterTail₀
  show StableHlo.after hostOps1 _ (Proc.devRef .tc main_v9) = _
  after_results
  unfold Cert.Chamfer.result Cert.Chamfer.tail
  have e2 := (Pipeline.withArrays_arr spec0 launch0.win.arr_inj c (V0 m c) (fun w => (dats m 0 c).arrAt w cfg0.N) 2).trans (h2 c)
  have e3 := (Pipeline.withArrays_arr spec0 launch0.win.arr_inj c (V0 m c) (fun w => (dats m 0 c).arrAt w cfg0.N) 3).trans (h3 c)
  refine congrArg (mulf _) (congrArg₂ addf (congrArg (fun s => Host.divf s _) ?_) (congrArg (fun s => Host.divf s _) ?_))
  · refine (reduceAdd_S16 _).trans ?_
    funext _
    refine congrArg (zw + ·) (Finset.sum_congr rfl fun b _ => ?_)
    refine (shapeCast_S16x1x1_S16_apply _ b).trans ?_
    exact congrFun e2 _
  · refine (reduceAdd_S16 _).trans ?_
    funext _
    refine congrArg (zw + ·) (Finset.sum_congr rfl fun b _ => ?_)
    refine (shapeCast_S16x1x1_S16_apply _ b).trans ?_
    exact congrFun e3 _

/-- At the compiled mesh, from any memory with zero counters: every weakly fair execution of the kernel program
    terminates, and if the region leaves `T1 c b` and `T2 c b` at `(b, 0, 0)` of its two output arrays, every final
    state has the program's result at the chamfer result of `T1 c` and `T2 c`, and both arguments as launched. -/
theorem run_of_finals (T1 T2 : Dev nD → Fin 16 → EReal)
    (h2 : ∀ c : Dev nD, (dats m 0 c).arrAt 2 cfg0.N = fun i => T1 c ⟨(i 0).val, (i 0).isLt⟩)
    (h3 : ∀ c : Dev nD, (dats m 0 c).arrAt 3 cfg0.N = fun i => T2 c ⟨(i 0).val, (i 0).isLt⟩) :
    θ_run defs (onTc (τ := τ) (main (F := Ideal))) ⟨m, fun _ => 0, ρ⟩ (fun r => ∀ c : Dev nD,
      r.2.mem ((c.tc : Thread nD τ).loc main_v9) = Cert.Chamfer.result (T1 c) (T2 c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v9 (Pipeline.mem_restRefs_of main_v9 (by decide) (by decide))).trans (tail_eq m T1 T2 h2 h3 c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Tail

end
-- ==== Proof.lean ====
/-
  The certificate's five claims for the chamfer-distance kernel against its reference.

  The three frames are the two generated frame runs and the reference's generated run with its result dropped; the
  idealization rewrote nothing. For the value claim both programs, at the ideal values, end at the same function of the
  two argument arrays: the reference computes, per cloud, the sum over the points of one cloud of the infimum over the
  other cloud of the squared distance `Σ (x_k - y_k)²`, in both directions, and the kernel computes the same two totals
  tile by tile from the expanded distance `Σ (-2·x_k)·y_k + Σ x_k² + Σ y_k²`. The two spellings of the distance agree
  on real points — which is where the finiteness of the inputs is used — and splitting a cloud into two halves changes
  neither a sum nor an infimum. Both programs then take the same means and the same final scale of the two totals.
-/
import proofs.«143833_j14645838479503_2_alg».proof.Defs
import proofs.«143833_j14645838479503_2_alg».proof.Proof.Gen.Kernel
import proofs.«143833_j14645838479503_2_alg».proof.Proof.Gen.Kernel.Skeleton
import proofs.«143833_j14645838479503_2_alg».proof.Proof.Gen.Kernel.Launch
import proofs.«143833_j14645838479503_2_alg».proof.Proof.Gen.Kernel.Points
import proofs.«143833_j14645838479503_2_alg».proof.Proof.Gen.Kernel.Frame
import proofs.«143833_j14645838479503_2_alg».proof.Proof.Gen.KernelIdeal
import proofs.«143833_j14645838479503_2_alg».proof.Proof.Gen.KernelIdeal.Skeleton
import proofs.«143833_j14645838479503_2_alg».proof.Proof.Gen.KernelIdeal.Launch
import proofs.«143833_j14645838479503_2_alg».proof.Proof.Gen.KernelIdeal.Points
import proofs.«143833_j14645838479503_2_alg».proof.Proof.Gen.KernelIdeal.Frame
import proofs.«143833_j14645838479503_2_alg».proof.Proof.Gen.ReferenceIdeal
import proofs.«143833_j14645838479503_2_alg».proof.Proof.Gen.Pre_finite_inputs
import proofs.«143833_j14645838479503_2_alg».proof.Proof.Gen.ReferenceIdeal.Run
import proofs.«143833_j14645838479503_2_alg».proof.Proof.Gen.ReferenceIdeal.Read
import proofs.«143833_j14645838479503_2_alg».proof.Proof.ChamferSpec
import proofs.«143833_j14645838479503_2_alg».proof.Proof.ChamferAlgebra
import proofs.«143833_j14645838479503_2_alg».proof.Proof.ChamferFinite
import proofs.«143833_j14645838479503_2_alg».proof.Proof.RefChamfer
import proofs.«143833_j14645838479503_2_alg».proof.Proof.KernelArrays
import proofs.«143833_j14645838479503_2_alg».proof.Proof.KernelTail
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : @Cert.frame_Kernel Cert.Kernel.Gen.facts Cert.Pre_finite_inputs.Gen.facts :=
  fun m ρ _ => Cert.Kernel.Gen.frame m ρ

/-- The idealized kernel runs and keeps its arguments. -/
theorem frame_ki : @Cert.frame_KernelIdeal Cert.KernelIdeal.Gen.facts Cert.Pre_finite_inputs.Gen.facts :=
  fun m ρ _ => Cert.KernelIdeal.Gen.frame m ρ

/-- The reference runs and keeps its arguments: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- The two idealized programs end with equal results: both at the chamfer result of the argument arrays. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.Chamfer.result (Cert.Chamfer.near1 (Cert.KernelIdeal.Steps.argP m c) (Cert.KernelIdeal.Steps.argQ m c))
      (Cert.Chamfer.near2 (Cert.KernelIdeal.Steps.argP m c) (Cert.KernelIdeal.Steps.argQ m c)), ?_, ?_⟩
  · refine (θ_run Cert.KernelIdeal.defs _ _).mono (fun r h c => ?_)
      (Cert.KernelIdeal.Tail.run_of_finals m ρ
        (fun c => Cert.Chamfer.tiled1 (Cert.KernelIdeal.Steps.argP m c) (Cert.KernelIdeal.Steps.argQ m c))
        (fun c => Cert.Chamfer.tiled2 (Cert.KernelIdeal.Steps.argP m c) (Cert.KernelIdeal.Steps.argQ m c))
        (Cert.KernelIdeal.Arrays.final2 m) (Cert.KernelIdeal.Arrays.final3 m))
    obtain ⟨h9, h0, h1⟩ := h c
    obtain ⟨hP, hQ⟩ := Cert.ChamferFinite.finite_of_pre (Cert.KernelIdeal.Steps.argP m c) (Cert.KernelIdeal.Steps.argQ m c) (hpre c)
    refine ⟨h9.trans ?_, h0, h1⟩
    rw [show Cert.Chamfer.tiled1 (Cert.KernelIdeal.Steps.argP m c) (Cert.KernelIdeal.Steps.argQ m c)
          = Cert.Chamfer.near1 (Cert.KernelIdeal.Steps.argP m c) (Cert.KernelIdeal.Steps.argQ m c) from
        funext (Cert.Chamfer.tiled1_eq _ _ hP hQ),
      show Cert.Chamfer.tiled2 (Cert.KernelIdeal.Steps.argP m c) (Cert.KernelIdeal.Steps.argQ m c)
          = Cert.Chamfer.near2 (Cert.KernelIdeal.Steps.argP m c) (Cert.KernelIdeal.Steps.argQ m c) from
        funext (Cert.Chamfer.tiled2_eq _ _ hP hQ)]
  · refine (θ_run Cert.ReferenceIdeal.defs _ _).mono (fun _ h c => ⟨?_, (h c).2⟩)
      (Cert.ReferenceIdeal.Value.run (F := Ideal) m' ρ')
    rw [(h c).1, Cert.ReferenceIdeal.Read.val_main_v14_eq, (hagree c).1, (hagree c).2]
    exact Cert.RefChamfer.ref_eq _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
